-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x2500000 : Shape := ⟨2, ![2, 2500000]⟩
abbrev S32x15 : Shape := ⟨2, ![32, 15]⟩
abbrev S32 : Shape := ⟨1, ![32]⟩
abbrev S32x32 : Shape := ⟨2, ![32, 32]⟩
abbrev S3x32 : Shape := ⟨2, ![3, 32]⟩
abbrev S3 : Shape := ⟨1, ![3]⟩
abbrev S8x32 : Shape := ⟨2, ![8, 32]⟩
abbrev S8 : Shape := ⟨1, ![8]⟩
abbrev S1x32 : Shape := ⟨2, ![1, 32]⟩
abbrev S1 : Shape := ⟨1, ![1]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S32x15 : S_.BroadcastsInDim S32x15 (![] : Fin 0 → Fin S32x15.rank)
  reducesTo_S32x15_S_d0_1 : S32x15.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S3x32 : S_.BroadcastsInDim S3x32 (![] : Fin 0 → Fin S3x32.rank)
  reducesTo_S3x32_S_d0_1 : S3x32.ReducesTo [0, 1] S_
  bcast_S_S3 : S_.BroadcastsInDim S3 (![] : Fin 0 → Fin S3.rank)
  reducesTo_S3_S_d0 : S3.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x32 .f32) (main_arg13 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S1x32 .f32 := Host.absf main_arg12
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S3x32 .f32) (main_arg9 : FVec F S3 .f32) (main_arg10 : FVec F S8x32 .f32) (main_arg11 : FVec F S8 .f32) (main_arg12 : FVec F S1x32 .f32) (main_arg13 : FVec F S1 .f32) (main_v33 : IVec S_ 1) : IVec S_ 1 :=
  let main_v34 : FVec F S3x32 .f32 := Host.absf main_arg8
  let main_cst_12 : FVec F S_ .f32 := constant S_ .f32 0x7F800000#32
  let main_v35 : FVec F S3x32 .f32 := broadcastInDim S3x32 ![] bcast_S_S3x32 main_cst_12
  let main_v36 : IVec S3x32 1 := cmpf .olt main_v34 main_v35
  let main_c_13 : IVec S_ 1 := constantI S_ 1 1#1
  let main_v37 : IVec S_ 1 := (fun x v => Host.reduce IntOp.andi x v reducesTo_S3x32_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S8x32 .f32 := Host.absf main_arg10
  let main_cst_16 : FVec F S_ .f32 := constant S_ .f32 0x7F800000#32
  let main_v45 : FVec F S8x32 .f32 := broadcastInDim S8x32 ![] bcast_S_S8x32 main_cst_16
  let main_v46 : IVec S8x32 1 := cmpf .olt main_v44 main_v45
  let main_c_17 : IVec S_ 1 := constantI S_ 1 1#1
  let main_v47 : IVec S_ 1 := (fun x v => Host.reduce IntOp.andi x v reducesTo_S8x32_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_arg12 main_arg13 main_v48 main_v49 main_v50

def fn_part1 {F : FTy → Type} [FloatOps F] (main_arg5 : FVec F S32x32 .f32) (main_arg6 : FVec F S32 .f32) (main_arg7 : FVec F S32x32 .f32) (main_arg8 : FVec F S3x32 .f32) (main_arg9 : FVec F S3 .f32) (main_arg10 : FVec F S8x32 .f32) (main_arg11 : FVec F S8 .f32) (main_arg12 : FVec F S1x32 .f32) (main_arg13 : FVec F S1 .f32) (main_v13 : IVec S_ 1) (main_v16 : IVec S32x15 1) : IVec S_ 1 :=
  let main_c_5 : IVec S_ 1 := constantI S_ 1 1#1
  let main_v17 : IVec S_ 1 := (fun x v => Host.reduce IntOp.andi x v reducesTo_S32x15_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x15 .f32) (main_arg1 : IVec S2x2500000 32) (main_arg2 : FVec F S32x15 .f32) (main_arg3 : FVec F S32 .f32) (main_arg4 : FVec F S32x15 .f32) (main_arg5 : FVec F S32x32 .f32) (main_arg6 : FVec F S32 .f32) (main_arg7 : FVec F S32x32 .f32) (main_arg8 : FVec F S3x32 .f32) (main_arg9 : FVec F S3 .f32) (main_arg10 : FVec F S8x32 .f32) (main_arg11 : FVec F S8 .f32) (main_arg12 : FVec F S1x32 .f32) (main_arg13 : FVec F S1 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S32x15 .f32 := Host.absf main_arg2
  let main_cst_0 : FVec F S_ .f32 := constant S_ .f32 0x7F800000#32
  let main_v5 : FVec F S32x15 .f32 := broadcastInDim S32x15 ![] bcast_S_S32x15 main_cst_0
  let main_v6 : IVec S32x15 1 := cmpf .olt main_v4 main_v5
  let main_c_1 : IVec S_ 1 := constantI S_ 1 1#1
  let main_v7 : IVec S_ 1 := (fun x v => Host.reduce IntOp.andi x v reducesTo_S32x15_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x15 .f32 := Host.absf main_arg4
  let main_cst_4 : FVec F S_ .f32 := constant S_ .f32 0x7F800000#32
  let main_v15 : FVec F S32x15 .f32 := broadcastInDim S32x15 ![] bcast_S_S32x15 main_cst_4
  let main_v16 : IVec S32x15 1 := cmpf .olt main_v14 main_v15
  fn_part1 (F := F) main_arg5 main_arg6 main_arg7 main_arg8 main_arg9 main_arg10 main_arg11 main_arg12 main_arg13 main_v13 main_v16
-- ==== Kernel.lean ====
abbrev S100000x15 : Shape := ⟨2, ![100000, 15]⟩
abbrev S2x2500000 : Shape := ⟨2, ![2, 2500000]⟩
abbrev S32x15 : Shape := ⟨2, ![32, 15]⟩
abbrev S32 : Shape := ⟨1, ![32]⟩
abbrev S32x32 : Shape := ⟨2, ![32, 32]⟩
abbrev S3x32 : Shape := ⟨2, ![3, 32]⟩
abbrev S3 : Shape := ⟨1, ![3]⟩
abbrev S8x32 : Shape := ⟨2, ![8, 32]⟩
abbrev S8 : Shape := ⟨1, ![8]⟩
abbrev S1x32 : Shape := ⟨2, ![1, 32]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x15 : Shape := ⟨2, ![2500000, 15]⟩
abbrev S100000 : Shape := ⟨1, ![100000]⟩
abbrev S100000x1 : Shape := ⟨2, ![100000, 1]⟩
abbrev S15x100000 : Shape := ⟨2, ![15, 100000]⟩
abbrev S15x114688 : Shape := ⟨2, ![15, 114688]⟩
abbrev S32x1 : Shape := ⟨2, ![32, 1]⟩
abbrev S32x114688 : Shape := ⟨2, ![32, 114688]⟩
abbrev S15x16384 : Shape := ⟨2, ![15, 16384]⟩
abbrev S32x16384 : Shape := ⟨2, ![32, 16384]⟩
abbrev S32x100000 : Shape := ⟨2, ![32, 100000]⟩
abbrev S100000x32 : Shape := ⟨2, ![100000, 32]⟩
abbrev S2500000x32 : Shape := ⟨2, ![2500000, 32]⟩
abbrev S3x1 : Shape := ⟨2, ![3, 1]⟩
abbrev S8x1 : Shape := ⟨2, ![8, 1]⟩
abbrev S1x1 : Shape := ⟨2, ![1, 1]⟩
abbrev S3x114688 : Shape := ⟨2, ![3, 114688]⟩
abbrev S8x114688 : Shape := ⟨2, ![8, 114688]⟩
abbrev S1x114688 : Shape := ⟨2, ![1, 114688]⟩
abbrev S3x16384 : Shape := ⟨2, ![3, 16384]⟩
abbrev S8x16384 : Shape := ⟨2, ![8, 16384]⟩
abbrev S1x16384 : Shape := ⟨2, ![1, 16384]⟩
abbrev S3x100000 : Shape := ⟨2, ![3, 100000]⟩
abbrev S100000x3 : Shape := ⟨2, ![100000, 3]⟩
abbrev S8x100000 : Shape := ⟨2, ![8, 100000]⟩
abbrev S100000x8 : Shape := ⟨2, ![100000, 8]⟩
abbrev S1x100000 : Shape := ⟨2, ![1, 100000]⟩

abbrev nBuf : Space → Nat
  | .hbm => 101
  | .vmem => 28
  | .smem => 0
  | _ => 0

abbrev bufTy : (tb : Table) → Fin (tcTables nBuf tb) → BufTy
  | .hbm, ⟨0, _⟩ => ⟨S100000x15, .f32⟩
  | .hbm, ⟨1, _⟩ => ⟨S2x2500000, .i32⟩
  | .hbm, ⟨2, _⟩ => ⟨S32x15, .f32⟩
  | .hbm, ⟨3, _⟩ => ⟨S32, .f32⟩
  | .hbm, ⟨4, _⟩ => ⟨S32x15, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S3x32, .f32⟩
  | .hbm, ⟨9, _⟩ => ⟨S3, .f32⟩
  | .hbm, ⟨10, _⟩ => ⟨S8x32, .f32⟩
  | .hbm, ⟨11, _⟩ => ⟨S8, .f32⟩
  | .hbm, ⟨12, _⟩ => ⟨S1x32, .f32⟩
  | .hbm, ⟨13, _⟩ => ⟨S1, .f32⟩
  | .hbm, ⟨14, _⟩ => ⟨S1x2500000, .i32⟩
  | .hbm, ⟨15, _⟩ => ⟨S2500000, .i32⟩
  | .hbm, ⟨16, _⟩ => ⟨S1x2500000, .i32⟩
  | .hbm, ⟨17, _⟩ => ⟨S2500000, .i32⟩
  | .hbm, ⟨18, _⟩ => ⟨S_, .i32⟩
  | .hbm, ⟨19, _⟩ => ⟨S2500000, .i32⟩
  | .hbm, ⟨20, _⟩ => ⟨S2500000, .i1⟩
  | .hbm, ⟨21, _⟩ => ⟨S_, .i32⟩
  | .hbm, ⟨22, _⟩ => ⟨S2500000, .i32⟩
  | .hbm, ⟨23, _⟩ => ⟨S2500000, .i32⟩
  | .hbm, ⟨24, _⟩ => ⟨S2500000, .i32⟩
  | .hbm, ⟨25, _⟩ => ⟨S2500000x1, .i32⟩
  | .hbm, ⟨26, _⟩ => ⟨S2500000x15, .f32⟩
  | .hbm, ⟨27, _⟩ => ⟨S_, .f32⟩
  | .hbm, ⟨28, _⟩ => ⟨S100000x15, .f32⟩
  | .hbm, ⟨29, _⟩ => ⟨S2500000x1, .i32⟩
  | .hbm, ⟨30, _⟩ => ⟨S100000x15, .f32⟩
  | .hbm, ⟨31, _⟩ => ⟨S_, .f32⟩
  | .hbm, ⟨32, _⟩ => ⟨S2500000, .f32⟩
  | .hbm, ⟨33, _⟩ => ⟨S_, .f32⟩
  | .hbm, ⟨34, _⟩ => ⟨S100000, .f32⟩
  | .hbm, ⟨35, _⟩ => ⟨S2500000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x15, .f32⟩
  | .hbm, ⟨42, _⟩ => ⟨S100000x15, .f32⟩
  | .hbm, ⟨43, _⟩ => ⟨S15x100000, .f32⟩
  | .hbm, ⟨44, _⟩ => ⟨S_, .i32⟩
  | .hbm, ⟨45, _⟩ => ⟨S_, .f32⟩
  | .hbm, ⟨46, _⟩ => ⟨S15x114688, .f32⟩
  | .hbm, ⟨47, _⟩ => ⟨S15x100000, .f32⟩
  | .hbm, ⟨48, _⟩ => ⟨S_, .i32⟩
  | .hbm, ⟨49, _⟩ => ⟨S_, .f32⟩
  | .hbm, ⟨50, _⟩ => ⟨S15x114688, .f32⟩
  | .hbm, ⟨51, _⟩ => ⟨S32x1, .f32⟩
  | .hbm, ⟨52, _⟩ => ⟨S32x114688, .f32⟩
  | .hbm, ⟨53, _⟩ => ⟨S32x100000, .f32⟩
  | .hbm, ⟨54, _⟩ => ⟨S100000x32, .f32⟩
  | .hbm, ⟨55, _⟩ => ⟨S_, .i32⟩
  | .hbm, ⟨56, _⟩ => ⟨S2500000, .i32⟩
  | .hbm, ⟨57, _⟩ => ⟨S2500000, .i1⟩
  | .hbm, ⟨58, _⟩ => ⟨S_, .i32⟩
  | .hbm, ⟨59, _⟩ => ⟨S2500000, .i32⟩
  | .hbm, ⟨60, _⟩ => ⟨S2500000, .i32⟩
  | .hbm, ⟨61, _⟩ => ⟨S2500000, .i32⟩
  | .hbm, ⟨62, _⟩ => ⟨S2500000x1, .i32⟩
  | .hbm, ⟨63, _⟩ => ⟨S2500000x32, .f32⟩
  | .hbm, ⟨64, _⟩ => ⟨S_, .f32⟩
  | .hbm, ⟨65, _⟩ => ⟨S100000x32, .f32⟩
  | .hbm, ⟨66, _⟩ => ⟨S2500000x1, .i32⟩
  | .hbm, ⟨67, _⟩ => ⟨S100000x32, .f32⟩
  | .hbm, ⟨68, _⟩ => ⟨S_, .f32⟩
  | .hbm, ⟨69, _⟩ => ⟨S2500000, .f32⟩
  | .hbm, ⟨70, _⟩ => ⟨S_, .f32⟩
  | .hbm, ⟨71, _⟩ => ⟨S100000, .f32⟩
  | .hbm, ⟨72, _⟩ => ⟨S2500000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x32, .f32⟩
  | .hbm, ⟨79, _⟩ => ⟨S100000x32, .f32⟩
  | .hbm, ⟨80, _⟩ => ⟨S32x100000, .f32⟩
  | .hbm, ⟨81, _⟩ => ⟨S_, .i32⟩
  | .hbm, ⟨82, _⟩ => ⟨S_, .f32⟩
  | .hbm, ⟨83, _⟩ => ⟨S32x114688, .f32⟩
  | .hbm, ⟨84, _⟩ => ⟨S32x100000, .f32⟩
  | .hbm, ⟨85, _⟩ => ⟨S_, .i32⟩
  | .hbm, ⟨86, _⟩ => ⟨S_, .f32⟩
  | .hbm, ⟨87, _⟩ => ⟨S32x114688, .f32⟩
  | .hbm, ⟨88, _⟩ => ⟨S32x1, .f32⟩
  | .hbm, ⟨89, _⟩ => ⟨S3x1, .f32⟩
  | .hbm, ⟨90, _⟩ => ⟨S8x1, .f32⟩
  | .hbm, ⟨91, _⟩ => ⟨S1x1, .f32⟩
  | .hbm, ⟨92, _⟩ => ⟨S3x114688, .f32⟩
  | .hbm, ⟨93, _⟩ => ⟨S8x114688, .f32⟩
  | .hbm, ⟨94, _⟩ => ⟨S1x114688, .f32⟩
  | .hbm, ⟨95, _⟩ => ⟨S3x100000, .f32⟩
  | .hbm, ⟨96, _⟩ => ⟨S100000x3, .f32⟩
  | .hbm, ⟨97, _⟩ => ⟨S8x100000, .f32⟩
  | .hbm, ⟨98, _⟩ => ⟨S100000x8, .f32⟩
  | .hbm, ⟨99, _⟩ => ⟨S1x100000, .f32⟩
  | .hbm, ⟨100, _⟩ => ⟨S100000x1, .f32⟩
  | .local _ .vmem, ⟨0, _⟩ => ⟨S15x16384, .f32⟩
  | .local _ .vmem, ⟨1, _⟩ => ⟨S15x16384, .f32⟩
  | .local _ .vmem, ⟨2, _⟩ => ⟨S15x16384, .f32⟩
  | .local _ .vmem, ⟨3, _⟩ => ⟨S15x16384, .f32⟩
  | .local _ .vmem, ⟨4, _⟩ => ⟨S32x15, .f32⟩
  | .local _ .vmem, ⟨5, _⟩ => ⟨S32x15, .f32⟩
  | .local _ .vmem, ⟨6, _⟩ => ⟨S32x1, .f32⟩
  | .local _ .vmem, ⟨7, _⟩ => ⟨S32x16384, .f32⟩
  | .local _ .vmem, ⟨8, _⟩ => ⟨S32x16384, .f32⟩
  | .local _ .vmem, ⟨9, _⟩ => ⟨S32x16384, .f32⟩
  | .local _ .vmem, ⟨10, _⟩ => ⟨S32x16384, .f32⟩
  | .local _ .vmem, ⟨11, _⟩ => ⟨S32x16384, .f32⟩
  | .local _ .vmem, ⟨12, _⟩ => ⟨S32x16384, .f32⟩
  | .local _ .vmem, ⟨13, _⟩ => ⟨S32x32, .f32⟩
  | .local _ .vmem, ⟨14, _⟩ => ⟨S32x32, .f32⟩
  | .local _ .vmem, ⟨15, _⟩ => ⟨S32x1, .f32⟩
  | .local _ .vmem, ⟨16, _⟩ => ⟨S3x32, .f32⟩
  | .local _ .vmem, ⟨17, _⟩ => ⟨S3x1, .f32⟩
  | .local _ .vmem, ⟨18, _⟩ => ⟨S8x32, .f32⟩
  | .local _ .vmem, ⟨19, _⟩ => ⟨S8x1, .f32⟩
  | .local _ .vmem, ⟨20, _⟩ => ⟨S1x32, .f32⟩
  | .local _ .vmem, ⟨21, _⟩ => ⟨S1x1, .f32⟩
  | .local _ .vmem, ⟨22, _⟩ => ⟨S3x16384, .f32⟩
  | .local _ .vmem, ⟨23, _⟩ => ⟨S3x16384, .f32⟩
  | .local _ .vmem, ⟨24, _⟩ => ⟨S8x16384, .f32⟩
  | .local _ .vmem, ⟨25, _⟩ => ⟨S8x16384, .f32⟩
  | .local _ .vmem, ⟨26, _⟩ => ⟨S1x16384, .f32⟩
  | .local _ .vmem, ⟨27, _⟩ => ⟨S1x16384, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_call0_v0 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_call1_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_call2_v0 : Ref sig .tc := ⟨.hbm, 82, rfl⟩
abbrev main_v51 : Ref sig .tc := ⟨.hbm, 83, rfl⟩
abbrev main_v52 : Ref sig .tc := ⟨.hbm, 84, rfl⟩
abbrev main_c_13 : Ref sig .tc := ⟨.hbm, 85, rfl⟩
abbrev main_call3_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58_0 : Ref sig .tc := ⟨.hbm, 92, rfl⟩
abbrev main_v58_1 : Ref sig .tc := ⟨.hbm, 93, rfl⟩
abbrev main_v58_2 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S15x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S3x16384 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x16384 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x16384 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  transposes_S100000x15_S15x100000_1_0 : S100000x15.Transposes [1, 0] S15x100000
  pads_S15x100000_S15x114688_000_0146880 : S15x100000.Pads (![0, 0] : Fin 2 → Nat) ![0, 14688] ![0, 0] S15x114688
  h_S_ : 0 < S_.numel
  shapeCasts_S32_S32x1 : S32.ShapeCasts S32x1
  inb_S15x16384_S15x16384_0_0 : ∀ a, (![0, 0] : Fin 2 → Nat) a + S15x16384.size a ≤ S15x16384.size a
  h_S15x16384 : 0 < S15x16384.numel
  shapeCasts_S15x16384_S15x16384 : S15x16384.ShapeCasts S15x16384
  bitsLt_bf16_f32 : FTy.bits .bf16 < FTy.bits .f32
  inb_S32x15_S32x15_0_0 : ∀ a, (![0, 0] : Fin 2 → Nat) a + S32x15.size a ≤ S32x15.size a
  h_S32x15 : 0 < S32x15.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S32x16384_S32x16384_0_0 : ∀ a, (![0, 0] : Fin 2 → Nat) a + S32x16384.size a ≤ S32x16384.size a
  h_S32x16384 : 0 < S32x16384.numel
  slices_S32x114688_S32x100000_0_0 : S32x114688.Slices ![0, 0] S32x100000
  transposes_S32x100000_S100000x32_1_0 : S32x100000.Transposes [1, 0] S100000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S100000x32_S32x100000_1_0 : S100000x32.Transposes [1, 0] S32x100000
  pads_S32x100000_S32x114688_000_0146880 : S32x100000.Pads (![0, 0] : Fin 2 → Nat) ![0, 14688] ![0, 0] S32x114688
  shapeCasts_S3_S3x1 : S3.ShapeCasts S3x1
  shapeCasts_S8_S8x1 : S8.ShapeCasts S8x1
  shapeCasts_S1_S1x1 : S1.ShapeCasts S1x1
  shapeCasts_S32x16384_S32x16384 : S32x16384.ShapeCasts S32x16384
  inb_S32x32_S32x32_0_0 : ∀ a, (![0, 0] : Fin 2 → Nat) a + S32x32.size a ≤ S32x32.size a
  h_S32x32 : 0 < S32x32.numel
  inb_S3x32_S3x32_0_0 : ∀ a, (![0, 0] : Fin 2 → Nat) a + S3x32.size a ≤ S3x32.size a
  h_S3x32 : 0 < S3x32.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16384 : S3x1.Broadcasts S3x16384
  inb_S3x16384_S3x16384_0_0 : ∀ a, (![0, 0] : Fin 2 → Nat) a + S3x16384.size a ≤ S3x16384.size a
  h_S3x16384 : 0 < S3x16384.numel
  inb_S8x32_S8x32_0_0 : ∀ a, (![0, 0] : Fin 2 → Nat) a + S8x32.size a ≤ S8x32.size a
  h_S8x32 : 0 < S8x32.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x16384 : S8x1.Broadcasts S8x16384
  inb_S8x16384_S8x16384_0_0 : ∀ a, (![0, 0] : Fin 2 → Nat) a + S8x16384.size a ≤ S8x16384.size a
  h_S8x16384 : 0 < S8x16384.numel
  inb_S1x32_S1x32_0_0 : ∀ a, (![0, 0] : Fin 2 → Nat) a + S1x32.size a ≤ S1x32.size a
  h_S1x32 : 0 < S1x32.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  slices_S3x114688_S3x100000_0_0 : S3x114688.Slices ![0, 0] S3x100000
  transposes_S3x100000_S100000x3_1_0 : S3x100000.Transposes [1, 0] S100000x3
  slices_S8x114688_S8x100000_0_0 : S8x114688.Slices ![0, 0] S8x100000
  transposes_S8x100000_S100000x8_1_0 : S8x100000.Transposes [1, 0] S100000x8
  slices_S1x114688_S1x100000_0_0 : S1x114688.Slices ![0, 0] S1x100000
  transposes_S1x100000_S100000x1_1_0 : S1x100000.Transposes [1, 0] S100000x1
  gather_S100000x15_S2500000x1_S2500000x15_1_0_n_n_0_1_115_wf : GatherDims.WF S100000x15 S2500000x1 S2500000x15 [1] [0] [] [0] [] 1 ![1, 15]
  scatter_S100000x15_S2500000x1_S2500000x15_1_0_0_1_wf : ScatterDims.WF S100000x15 S2500000x1 S2500000x15 [1] [0] [0] 1
  scatter_S100000_S2500000x1_S2500000_n_0_0_1_wf : ScatterDims.WF S100000 S2500000x1 S2500000 [] [0] [0] 1
  dot_S32x15_S15x16384_S32x16384_1_0_0_1_n_n_wf : DotDims.WF S32x15 S15x16384 S32x16384 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S32x32_S32x16384_S32x16384_1_0_0_1_n_n_wf : DotDims.WF S32x32 S32x16384 S32x16384 [1] [0] [0] [1] [] []
  dot_S3x32_S32x16384_S3x16384_1_0_0_1_n_n_wf : DotDims.WF S3x32 S32x16384 S3x16384 [1] [0] [0] [1] [] []
  dot_S8x32_S32x16384_S8x16384_1_0_0_1_n_n_wf : DotDims.WF S8x32 S32x16384 S8x16384 [1] [0] [0] [1] [] []
  dot_S1x32_S32x16384_S1x16384_1_0_0_1_n_n_wf : DotDims.WF S1x32 S32x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15x16384.size a ≤ S15x114688.size a
  hwx0_0 : ∀ i : grid0.Coords, EltTy.bits .f32 = 32 ∨ (Rect.block (s := S15x114688) S15x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15x16384.size a ≤ S15x114688.size a
  hwx0_1 : ∀ i : grid0.Coords, EltTy.bits .f32 = 32 ∨ (Rect.block (s := S15x114688) S15x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x15.size a ≤ S32x15.size a
  hwx0_2 : ∀ i : grid0.Coords, EltTy.bits .f32 = 32 ∨ (Rect.block (s := S32x15) S32x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x15.size a ≤ S32x15.size a
  hwx0_3 : ∀ i : grid0.Coords, EltTy.bits .f32 = 32 ∨ (Rect.block (s := S32x15) S32x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16384.size a ≤ S32x114688.size a
  hwx0_5 : ∀ i : grid0.Coords, EltTy.bits .f32 = 32 ∨ (Rect.block (s := S32x114688) S32x16384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16384.size a ≤ S32x114688.size a
  hwx1_0 : ∀ i : grid1.Coords, EltTy.bits .f32 = 32 ∨ (Rect.block (s := S32x114688) S32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16384.size a ≤ S32x114688.size a
  hwx1_1 : ∀ i : grid1.Coords, EltTy.bits .f32 = 32 ∨ (Rect.block (s := S32x114688) S32x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x32.size a ≤ S3x32.size a
  hwx1_5 : ∀ i : grid1.Coords, EltTy.bits .f32 = 32 ∨ (Rect.block (s := S3x32) S3x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x1.size a ≤ S3x1.size a
  hwx1_6 : ∀ i : grid1.Coords, EltTy.bits .f32 = 32 ∨ (Rect.block (s := S3x1) S3x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x32.size a ≤ S8x32.size a
  hwx1_7 : ∀ i : grid1.Coords, EltTy.bits .f32 = 32 ∨ (Rect.block (s := S8x32) S8x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x1.size a ≤ S8x1.size a
  hwx1_8 : ∀ i : grid1.Coords, EltTy.bits .f32 = 32 ∨ (Rect.block (s := S8x1) S8x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S3x16384.size a ≤ S3x114688.size a
  hwx1_11 : ∀ i : grid1.Coords, EltTy.bits .f32 = 32 ∨ (Rect.block (s := S3x114688) S3x16384.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S8x16384.size a ≤ S8x114688.size a
  hwx1_12 : ∀ i : grid1.Coords, EltTy.bits .f32 = 32 ∨ (Rect.block (s := S8x114688) S8x16384.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x16384.size a ≤ S1x114688.size a
  hwx1_13 : ∀ i : grid1.Coords, EltTy.bits .f32 = 32 ∨ (Rect.block (s := S1x114688) S1x16384.size (cc1_transform_13 i) (hinb1_13 i)).WholeWords (EltTy.packing .f32)

variable [Facts₀]

def gather_S100000x15_S2500000x1_S2500000x15_1_0_n_n_0_1_115 : GatherDims S100000x15 S2500000x1 S2500000x15 where
  offsetDims := [1]
  collapsedSliceDims := [0]
  operandBatchingDims := []
  startIndicesBatchingDims := []
  startIndexMap := [0]
  indexVectorDim := 1
  sliceSizes := ![1, 15]
  wf := gather_S100000x15_S2500000x1_S2500000x15_1_0_n_n_0_1_115_wf
def scatter_S100000x15_S2500000x1_S2500000x15_1_0_0_1 : ScatterDims S100000x15 S2500000x1 S2500000x15 where
  updateWindowDims := [1]
  insertedWindowDims := [0]
  scatterDimsToOperandDims := [0]
  indexVectorDim := 1
  wf := scatter_S100000x15_S2500000x1_S2500000x15_1_0_0_1_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def dot_S32x15_S15x16384_S32x16384_1_0_0_1_n_n : DotDims S32x15 S15x16384 S32x16384 where
  lhsContracting := [1]
  rhsContracting := [0]
  lhsNonContracting := [0]
  rhsNonContracting := [1]
  lhsBatch := []
  rhsBatch := []
  wf := dot_S32x15_S15x16384_S32x16384_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S32x32_S32x16384_S32x16384_1_0_0_1_n_n : DotDims S32x32 S32x16384 S32x16384 where
  lhsContracting := [1]
  rhsContracting := [0]
  lhsNonContracting := [0]
  rhsNonContracting := [1]
  lhsBatch := []
  rhsBatch := []
  wf := dot_S32x32_S32x16384_S32x16384_1_0_0_1_n_n_wf
def dot_S3x32_S32x16384_S3x16384_1_0_0_1_n_n : DotDims S3x32 S32x16384 S3x16384 where
  lhsContracting := [1]
  rhsContracting := [0]
  lhsNonContracting := [0]
  rhsNonContracting := [1]
  lhsBatch := []
  rhsBatch := []
  wf := dot_S3x32_S32x16384_S3x16384_1_0_0_1_n_n_wf
def dot_S8x32_S32x16384_S8x16384_1_0_0_1_n_n : DotDims S8x32 S32x16384 S8x16384 where
  lhsContracting := [1]
  rhsContracting := [0]
  lhsNonContracting := [0]
  rhsNonContracting := [1]
  lhsBatch := []
  rhsBatch := []
  wf := dot_S8x32_S32x16384_S8x16384_1_0_0_1_n_n_wf
def dot_S1x32_S32x16384_S1x16384_1_0_0_1_n_n : DotDims S1x32 S32x16384 S1x16384 where
  lhsContracting := [1]
  rhsContracting := [0]
  lhsNonContracting := [0]
  rhsNonContracting := [1]
  lhsBatch := []
  rhsBatch := []
  wf := dot_S1x32_S32x16384_S1x16384_1_0_0_1_n_n_wf

abbrev win0_0 : Pipeline.Window sig grid0 :=
  Pipeline.Window.ofSpec (Memref.whole main_v26) S15x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S15x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S32x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S32x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S3x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S3x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S8x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S8x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v57) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v58_0) S3x16384.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v58_1) S8x16384.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v58_2) S1x16384.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x15 : Shape := ⟨2, ![100000, 15]⟩
abbrev S2x2500000 : Shape := ⟨2, ![2, 2500000]⟩
abbrev S32x15 : Shape := ⟨2, ![32, 15]⟩
abbrev S32 : Shape := ⟨1, ![32]⟩
abbrev S32x32 : Shape := ⟨2, ![32, 32]⟩
abbrev S3x32 : Shape := ⟨2, ![3, 32]⟩
abbrev S3 : Shape := ⟨1, ![3]⟩
abbrev S8x32 : Shape := ⟨2, ![8, 32]⟩
abbrev S8 : Shape := ⟨1, ![8]⟩
abbrev S1x32 : Shape := ⟨2, ![1, 32]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x15 : Shape := ⟨2, ![2500000, 15]⟩
abbrev S100000 : Shape := ⟨1, ![100000]⟩
abbrev S100000x1 : Shape := ⟨2, ![100000, 1]⟩
abbrev S15x32 : Shape := ⟨2, ![15, 32]⟩
abbrev S100000x32 : Shape := ⟨2, ![100000, 32]⟩
abbrev S2500000x32 : Shape := ⟨2, ![2500000, 32]⟩
abbrev S32x3 : Shape := ⟨2, ![32, 3]⟩
abbrev S100000x3 : Shape := ⟨2, ![100000, 3]⟩
abbrev S1x3 : Shape := ⟨2, ![1, 3]⟩
abbrev S32x8 : Shape := ⟨2, ![32, 8]⟩
abbrev S100000x8 : Shape := ⟨2, ![100000, 8]⟩
abbrev S1x8 : Shape := ⟨2, ![1, 8]⟩
abbrev S32x1 : Shape := ⟨2, ![32, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x15, .f32⟩
  | .hbm, ⟨1, _⟩ => ⟨S2x2500000, .i32⟩
  | .hbm, ⟨2, _⟩ => ⟨S32x15, .f32⟩
  | .hbm, ⟨3, _⟩ => ⟨S32, .f32⟩
  | .hbm, ⟨4, _⟩ => ⟨S32x15, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S3x32, .f32⟩
  | .hbm, ⟨9, _⟩ => ⟨S3, .f32⟩
  | .hbm, ⟨10, _⟩ => ⟨S8x32, .f32⟩
  | .hbm, ⟨11, _⟩ => ⟨S8, .f32⟩
  | .hbm, ⟨12, _⟩ => ⟨S1x32, .f32⟩
  | .hbm, ⟨13, _⟩ => ⟨S1, .f32⟩
  | .hbm, ⟨14, _⟩ => ⟨S1x2500000, .i32⟩
  | .hbm, ⟨15, _⟩ => ⟨S2500000, .i32⟩
  | .hbm, ⟨16, _⟩ => ⟨S1x2500000, .i32⟩
  | .hbm, ⟨17, _⟩ => ⟨S2500000, .i32⟩
  | .hbm, ⟨18, _⟩ => ⟨S_, .i32⟩
  | .hbm, ⟨19, _⟩ => ⟨S2500000, .i32⟩
  | .hbm, ⟨20, _⟩ => ⟨S2500000, .i1⟩
  | .hbm, ⟨21, _⟩ => ⟨S_, .i32⟩
  | .hbm, ⟨22, _⟩ => ⟨S2500000, .i32⟩
  | .hbm, ⟨23, _⟩ => ⟨S2500000, .i32⟩
  | .hbm, ⟨24, _⟩ => ⟨S2500000, .i32⟩
  | .hbm, ⟨25, _⟩ => ⟨S2500000x1, .i32⟩
  | .hbm, ⟨26, _⟩ => ⟨S2500000x15, .f32⟩
  | .hbm, ⟨27, _⟩ => ⟨S_, .f32⟩
  | .hbm, ⟨28, _⟩ => ⟨S100000x15, .f32⟩
  | .hbm, ⟨29, _⟩ => ⟨S2500000x1, .i32⟩
  | .hbm, ⟨30, _⟩ => ⟨S100000x15, .f32⟩
  | .hbm, ⟨31, _⟩ => ⟨S_, .f32⟩
  | .hbm, ⟨32, _⟩ => ⟨S2500000, .f32⟩
  | .hbm, ⟨33, _⟩ => ⟨S_, .f32⟩
  | .hbm, ⟨34, _⟩ => ⟨S100000, .f32⟩
  | .hbm, ⟨35, _⟩ => ⟨S2500000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x15, .f32⟩
  | .hbm, ⟨42, _⟩ => ⟨S100000x15, .f32⟩
  | .hbm, ⟨43, _⟩ => ⟨S15x32, .f32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S100000x32, .f32⟩
  | .hbm, ⟨48, _⟩ => ⟨S15x32, .f32⟩
  | .hbm, ⟨49, _⟩ => ⟨S100000x32, .f32⟩
  | .hbm, ⟨50, _⟩ => ⟨S100000x32, .f32⟩
  | .hbm, ⟨51, _⟩ => ⟨S_, .f32⟩
  | .hbm, ⟨52, _⟩ => ⟨S100000x32, .f32⟩
  | .hbm, ⟨53, _⟩ => ⟨S100000x32, .f32⟩
  | .hbm, ⟨54, _⟩ => ⟨S_, .i32⟩
  | .hbm, ⟨55, _⟩ => ⟨S2500000, .i32⟩
  | .hbm, ⟨56, _⟩ => ⟨S2500000, .i1⟩
  | .hbm, ⟨57, _⟩ => ⟨S_, .i32⟩
  | .hbm, ⟨58, _⟩ => ⟨S2500000, .i32⟩
  | .hbm, ⟨59, _⟩ => ⟨S2500000, .i32⟩
  | .hbm, ⟨60, _⟩ => ⟨S2500000, .i32⟩
  | .hbm, ⟨61, _⟩ => ⟨S2500000x1, .i32⟩
  | .hbm, ⟨62, _⟩ => ⟨S2500000x32, .f32⟩
  | .hbm, ⟨63, _⟩ => ⟨S_, .f32⟩
  | .hbm, ⟨64, _⟩ => ⟨S100000x32, .f32⟩
  | .hbm, ⟨65, _⟩ => ⟨S2500000x1, .i32⟩
  | .hbm, ⟨66, _⟩ => ⟨S100000x32, .f32⟩
  | .hbm, ⟨67, _⟩ => ⟨S_, .f32⟩
  | .hbm, ⟨68, _⟩ => ⟨S2500000, .f32⟩
  | .hbm, ⟨69, _⟩ => ⟨S_, .f32⟩
  | .hbm, ⟨70, _⟩ => ⟨S100000, .f32⟩
  | .hbm, ⟨71, _⟩ => ⟨S2500000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x32, .f32⟩
  | .hbm, ⟨78, _⟩ => ⟨S100000x32, .f32⟩
  | .hbm, ⟨79, _⟩ => ⟨S32x32, .f32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S32x32, .f32⟩
  | .hbm, ⟨85, _⟩ => ⟨S100000x32, .f32⟩
  | .hbm, ⟨86, _⟩ => ⟨S100000x32, .f32⟩
  | .hbm, ⟨87, _⟩ => ⟨S_, .f32⟩
  | .hbm, ⟨88, _⟩ => ⟨S100000x32, .f32⟩
  | .hbm, ⟨89, _⟩ => ⟨S100000x32, .f32⟩
  | .hbm, ⟨90, _⟩ => ⟨S32x3, .f32⟩
  | .hbm, ⟨91, _⟩ => ⟨S100000x3, .f32⟩
  | .hbm, ⟨92, _⟩ => ⟨S1x3, .f32⟩
  | .hbm, ⟨93, _⟩ => ⟨S100000x3, .f32⟩
  | .hbm, ⟨94, _⟩ => ⟨S100000x3, .f32⟩
  | .hbm, ⟨95, _⟩ => ⟨S32x8, .f32⟩
  | .hbm, ⟨96, _⟩ => ⟨S100000x8, .f32⟩
  | .hbm, ⟨97, _⟩ => ⟨S1x8, .f32⟩
  | .hbm, ⟨98, _⟩ => ⟨S100000x8, .f32⟩
  | .hbm, ⟨99, _⟩ => ⟨S100000x8, .f32⟩
  | .hbm, ⟨100, _⟩ => ⟨S32x1, .f32⟩
  | .hbm, ⟨101, _⟩ => ⟨S100000x1, .f32⟩
  | .hbm, ⟨102, _⟩ => ⟨S1x1, .f32⟩
  | .hbm, ⟨103, _⟩ => ⟨S100000x1, .f32⟩
  | .hbm, ⟨104, _⟩ => ⟨S100000x1, .f32⟩
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  transposes_S32x15_S15x32_1_0 : S32x15.Transposes [1, 0] S15x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S32x32_S32x32_1_0 : S32x32.Transposes [1, 0] S32x32
  transposes_S3x32_S32x3_1_0 : S3x32.Transposes [1, 0] S32x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  transposes_S8x32_S32x8_1_0 : S8x32.Transposes [1, 0] S32x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x15_S2500000x1_S2500000x15_1_0_n_n_0_1_115_wf : GatherDims.WF S100000x15 S2500000x1 S2500000x15 [1] [0] [] [0] [] 1 ![1, 15]
  scatter_S100000x15_S2500000x1_S2500000x15_1_0_0_1_wf : ScatterDims.WF S100000x15 S2500000x1 S2500000x15 [1] [0] [0] 1
  scatter_S100000_S2500000x1_S2500000_n_0_0_1_wf : ScatterDims.WF S100000 S2500000x1 S2500000 [] [0] [0] 1
  dot_S100000x15_S15x32_S100000x32_1_0_0_1_n_n_wf : DotDims.WF S100000x15 S15x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x32_S100000x32_1_0_0_1_n_n_wf : DotDims.WF S100000x32 S32x32 S100000x32 [1] [0] [0] [1] [] []
  dot_S100000x32_S32x3_S100000x3_1_0_0_1_n_n_wf : DotDims.WF S100000x32 S32x3 S100000x3 [1] [0] [0] [1] [] []
  dot_S100000x32_S32x8_S100000x8_1_0_0_1_n_n_wf : DotDims.WF S100000x32 S32x8 S100000x8 [1] [0] [0] [1] [] []
  dot_S100000x32_S32x1_S100000x1_1_0_0_1_n_n_wf : DotDims.WF S100000x32 S32x1 S100000x1 [1] [0] [0] [1] [] []

variable [Facts₀]

def gather_S100000x15_S2500000x1_S2500000x15_1_0_n_n_0_1_115 : GatherDims S100000x15 S2500000x1 S2500000x15 where
  offsetDims := [1]
  collapsedSliceDims := [0]
  operandBatchingDims := []
  startIndicesBatchingDims := []
  startIndexMap := [0]
  indexVectorDim := 1
  sliceSizes := ![1, 15]
  wf := gather_S100000x15_S2500000x1_S2500000x15_1_0_n_n_0_1_115_wf
def scatter_S100000x15_S2500000x1_S2500000x15_1_0_0_1 : ScatterDims S100000x15 S2500000x1 S2500000x15 where
  updateWindowDims := [1]
  insertedWindowDims := [0]
  scatterDimsToOperandDims := [0]
  indexVectorDim := 1
  wf := scatter_S100000x15_S2500000x1_S2500000x15_1_0_0_1_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def dot_S100000x15_S15x32_S100000x32_1_0_0_1_n_n : DotDims S100000x15 S15x32 S100000x32 where
  lhsContracting := [1]
  rhsContracting := [0]
  lhsNonContracting := [0]
  rhsNonContracting := [1]
  lhsBatch := []
  rhsBatch := []
  wf := dot_S100000x15_S15x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with its three results named.

  The program is two accelerator regions among stretches of host operations. Its run is the chain of those segments
  from the launch memory: after the last stretch every unscoped buffer of a core holds the last boundary's contents,
  so each result array ends at those contents read at its buffer, and each argument array ends as launched.
-/
import proofs.«111565_j57483842290347_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three result arrays end at the last
    boundary's contents and the fourteen argument arrays as launched. -/
theorem run : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_v62) = W13 m ρ c (Proc.devRef .tc main_v62)
      ∧ r.2.mem ((c.tc : Thread nD τ).loc main_v64) = W13 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       h c _ (mem_uc main_v62 (by decide)),
       h c _ (mem_uc main_v64 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Results

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.Spec.lean ====
/-
  A two-layer mean-aggregation graph network with three linear heads, as functions on arrays of extended reals.

  For feature rows `X` (one row per node) and their neighbour means `M`, a layer is
      (n, f) ↦ max (∑ k, Wl (f, k) · M (n, k) + ∑ k, Wr (f, k) · X (n, k) + b f) 0
  and a head is (n, c) ↦ ∑ k, W (c, k) · H (n, k) + b c.  The accelerator computes the same numbers with nodes along the
  second axis: `layerT` and `headT` are matrix products `W · Xᵀ` with the bias as a column, and column `n` of the
  result reads column `n` of the node operands only.  The two layouts agree entry by entry (`layerT_eq`, `headT_eq`);
  the only laws used are commutativity of the product and commutativity and associativity of the sum, which hold on
  all of the extended reals, so no finiteness is needed.
-/
import proofs.«111565_j57483842290347_1_alg».proof.Proof.LibPlainDot

noncomputable section

namespace Cert.Sage

open Idealize.ShloMosaic Idealize.ShloMosaic.ValueIdx Cert.Lib.PlainDot

abbrev Mat (a b : Nat) := (⟨2, ![a, b]⟩ : Shape).Idx → EReal
abbrev Vc (a : Nat) := (⟨1, ![a]⟩ : Shape).Idx → EReal

/-- The rows of `X` through the linear map `W`: (n, c) ↦ ∑ k, W (c, k) · X (n, k). -/
def lin {N C K : Nat} (W : Mat C K) (X : Mat N K) : Mat N C :=
  fun j => ∑ k : Fin K, W (ix2 (j 1) k) * X (ix2 (j 0) k)

theorem lin_apply {N C K : Nat} (W : Mat C K) (X : Mat N K) (n : Fin N) (c : Fin C) :
    lin W X (ix2 n c) = ∑ k : Fin K, W (ix2 c k) * X (ix2 n k) := rfl

/-- One layer: neighbour means `M` through `Wl`, the nodes' own rows `X` through `Wr`, a bias, then the positive part. -/
def layer {N K : Nat} (Wl Wr : Mat 32 K) (b : Vc 32) (M X : Mat N K) : Mat N 32 :=
  fun j => max (lin Wl M j + lin Wr X j + b (ix1 (j 1))) 0

theorem layer_apply {N K : Nat} (Wl Wr : Mat 32 K) (b : Vc 32) (M X : Mat N K) (n : Fin N) (f : Fin 32) :
    layer Wl Wr b M X (ix2 n f) = max (lin Wl M (ix2 n f) + lin Wr X (ix2 n f) + b (ix1 f)) 0 := rfl

/-- A linear head with bias. -/
def head {N C : Nat} (W : Mat C 32) (b : Vc C) (H : Mat N 32) : Mat N C :=
  fun j => lin W H j + b (ix1 (j 1))

theorem head_apply {N C : Nat} (W : Mat C 32) (b : Vc C) (H : Mat N 32) (n : Fin N) (c : Fin C) :
    head W b H (ix2 n c) = lin W H (ix2 n c) + b (ix1 c) := rfl

/-- The layer with nodes along the second axis: `max (Wl · Mt + Wr · Xt + b) 0`, the bias a column. -/
def layerT {N K : Nat} (Wl Wr : Mat 32 K) (b : Mat 32 1) (Mt Xt : Mat K N) : Mat 32 N :=
  fun j => max (mm Wl Mt j + mm Wr Xt j + b (ix2 (j 0) 0)) 0

theorem layerT_apply {N K : Nat} (Wl Wr : Mat 32 K) (b : Mat 32 1) (Mt Xt : Mat K N) (f : Fin 32) (n : Fin N) :
    layerT Wl Wr b Mt Xt (ix2 f n) = max (mm Wl Mt (ix2 f n) + mm Wr Xt (ix2 f n) + b (ix2 f 0)) 0 := rfl

/-- The head with nodes along the second axis. -/
def headT {N C : Nat} (W : Mat C 32) (b : Mat C 1) (Ht : Mat 32 N) : Mat C N :=
  fun j => mm W Ht j + b (ix2 (j 0) 0)

theorem headT_apply {N C : Nat} (W : Mat C 32) (b : Mat C 1) (Ht : Mat 32 N) (c : Fin C) (n : Fin N) :
    headT W b Ht (ix2 c n) = mm W Ht (ix2 c n) + b (ix2 c 0) := rfl

/-- A product `W · Xt` at column `n'` is `lin W X` at row `n` when column `n'` of `Xt` is row `n` of `X`. -/
theorem mm_eq_lin {N N' C K : Nat} (W : Mat C K) (Xt : Mat K N') (X : Mat N K) (c : Fin C) (n' : Fin N') (n : Fin N)
    (h : ∀ k : Fin K, Xt (ix2 k n') = X (ix2 n k)) : mm W Xt (ix2 c n') = lin W X (ix2 n c) := by
  rw [mm_apply, lin_apply]
  exact Finset.sum_congr rfl fun k _ => by rw [h k]

/-- The transposed layer at column `n'` is the layer at row `n`, when the node operands' columns `n'` are the rows `n`
    and the bias column is the bias. -/
theorem layerT_eq {N N' K : Nat} (Wl Wr : Mat 32 K) (bc : Mat 32 1) (b : Vc 32) (Mt Xt : Mat K N') (M X : Mat N K)
    (f : Fin 32) (n' : Fin N') (n : Fin N) (hb : bc (ix2 f 0) = b (ix1 f))
    (hM : ∀ k : Fin K, Mt (ix2 k n') = M (ix2 n k)) (hX : ∀ k : Fin K, Xt (ix2 k n') = X (ix2 n k)) :
    layerT Wl Wr bc Mt Xt (ix2 f n') = layer Wl Wr b M X (ix2 n f) := by
  rw [layerT_apply, layer_apply, mm_eq_lin Wl Mt M f n' n hM, mm_eq_lin Wr Xt X f n' n hX, hb]

/-- The transposed head at column `n'` is the head at row `n`. -/
theorem headT_eq {N N' C : Nat} (W : Mat C 32) (bc : Mat C 1) (b : Vc C) (Ht : Mat 32 N') (H : Mat N 32)
    (c : Fin C) (n' : Fin N') (n : Fin N) (hb : bc (ix2 c 0) = b (ix1 c))
    (hH : ∀ k : Fin 32, Ht (ix2 k n') = H (ix2 n k)) :
    headT W bc Ht (ix2 c n') = head W b H (ix2 n c) := by
  rw [headT_apply, head_apply, mm_eq_lin W Ht H c n' n hH, hb]

/-- Column locality: a column of `W · A` reads the same column of `A`. -/
theorem mm_col {C K N N' : Nat} (W : Mat C K) (A : Mat K N) (A' : Mat K N') (c : Fin C) (n : Fin N) (n' : Fin N')
    (h : ∀ k : Fin K, A' (ix2 k n') = A (ix2 k n)) : mm W A' (ix2 c n') = mm W A (ix2 c n) := by
  rw [mm_apply, mm_apply]
  exact Finset.sum_congr rfl fun k _ => by rw [h k]

theorem layerT_col {K N N' : Nat} (Wl Wr : Mat 32 K) (b : Mat 32 1) (Mt Xt : Mat K N) (Mt' Xt' : Mat K N')
    (f : Fin 32) (n : Fin N) (n' : Fin N') (hM : ∀ k : Fin K, Mt' (ix2 k n') = Mt (ix2 k n))
    (hX : ∀ k : Fin K, Xt' (ix2 k n') = Xt (ix2 k n)) :
    layerT Wl Wr b Mt' Xt' (ix2 f n') = layerT Wl Wr b Mt Xt (ix2 f n) := by
  rw [layerT_apply, layerT_apply, mm_col Wl Mt Mt' f n n' hM, mm_col Wr Xt Xt' f n n' hX]

theorem headT_col {C N N' : Nat} (W : Mat C 32) (b : Mat C 1) (Ht : Mat 32 N) (Ht' : Mat 32 N')
    (c : Fin C) (n : Fin N) (n' : Fin N') (hH : ∀ k : Fin 32, Ht' (ix2 k n') = Ht (ix2 k n)) :
    headT W b Ht' (ix2 c n') = headT W b Ht (ix2 c n) := by
  rw [headT_apply, headT_apply, mm_col W Ht Ht' c n n' hH]

end Cert.Sage

end
-- ==== Proof.RefValue.lean ====
/-
  The reference program's three results as functions of its arguments.

  The reference is a two-layer mean-aggregation graph network with three linear heads. With `nm15 x e` the
  neighbour mean of the rows of `x` along the edges `e`, and `nm32 h e` the neighbour mean of the rows of a
  hidden array `h` along the same edges, the reference computes
      H1 = layer w1l w1r b1 (nm15 x e) x,      H2 = layer w2l w2r b2 (nm32 H1 e) H1,
  and returns `head wh bh H2`, `head wm bm H2`, `head wl bl H2`. The neighbour means are carried as opaque
  functions of their operands: nothing is said of which rows they read. Every other operation is read index by
  index: a product of the rows with a transposed weight array is the sum over the feature axis, a bias is broadcast
  along the rows, and the positive part is the maximum with zero. The only laws used are commutativity of the
  product and commutativity and associativity of the sum of extended reals.
-/
import proofs.«111565_j57483842290347_1_alg».proof.Proof.Gen.ReferenceIdeal.Read
import proofs.«111565_j57483842290347_1_alg».proof.Proof.Spec

noncomputable section

namespace Cert.Sage.Ref

open Cert.ReferenceIdeal Cert.ReferenceIdeal.Gen Idealize.ShloMosaic Idealize.ShloMosaic.TcCoe Idealize.SL.Sem Idealize.ShloMosaic.StableHlo
open Idealize.ShloMosaic.ValueIdx

variable (x : (⟨S100000x15, .f32⟩ : BufTy).Contents (Elt Ideal)) (e : (⟨S2x2500000, .i32⟩ : BufTy).Contents (Elt Ideal))
  (w1l : (⟨S32x15, .f32⟩ : BufTy).Contents (Elt Ideal)) (b1 : (⟨S32, .f32⟩ : BufTy).Contents (Elt Ideal)) (w1r : (⟨S32x15, .f32⟩ : BufTy).Contents (Elt Ideal))
  (w2l : (⟨S32x32, .f32⟩ : BufTy).Contents (Elt Ideal)) (b2 : (⟨S32, .f32⟩ : BufTy).Contents (Elt Ideal)) (w2r : (⟨S32x32, .f32⟩ : BufTy).Contents (Elt Ideal))
  (wh : (⟨S3x32, .f32⟩ : BufTy).Contents (Elt Ideal)) (bh : (⟨S3, .f32⟩ : BufTy).Contents (Elt Ideal)) (wm : (⟨S8x32, .f32⟩ : BufTy).Contents (Elt Ideal)) (bm : (⟨S8, .f32⟩ : BufTy).Contents (Elt Ideal))
  (wl : (⟨S1x32, .f32⟩ : BufTy).Contents (Elt Ideal)) (bl : (⟨S1, .f32⟩ : BufTy).Contents (Elt Ideal))

/-- The neighbour mean of the rows of `x`: for each node, the sum of the rows of `x` at the sources of the edges
    that end at the node, divided by the larger of their number and one. -/
def nm15 : (⟨S100000x15, .f32⟩ : BufTy).Contents (Elt Ideal) := Read.val_main_v22 (F := Ideal) x e

/-- The neighbour mean of the rows of a hidden array `h` along the edges `e`: the rows of `h` at the edges'
    sources (negative sources wrapped around) are summed into the rows of a zero array at the edges' targets, and
    each row is divided by the larger of the number of edges ending there and one. -/
def nm32 (h : (⟨S100000x32, .f32⟩ : BufTy).Contents (Elt Ideal)) (e : (⟨S2x2500000, .i32⟩ : BufTy).Contents (Elt Ideal)) : (⟨S100000x32, .f32⟩ : BufTy).Contents (Elt Ideal) :=
  Host.divf (F := Ideal)
    (Host.scatterAdd (F := Ideal) scatter_S100000x32_S2500000x1_S2500000x32_1_0_0_1
      (broadcastInDim S100000x32 ![] bcast_S_S100000x32 (constant (F := Ideal) S_ .f32 0x00000000#32))
      (broadcastInDim S2500000x1 ![0] bcast_S2500000_S2500000x1_0 (Read.val_main_v3 (F := Ideal) e))
      (Host.gather gather_S100000x32_S2500000x1_S2500000x32_1_0_n_n_0_1_132 h
        (broadcastInDim S2500000x1 ![0] bcast_S2500000_S2500000x1_0
          (select
            (cmpi .slt (Read.val_main_v1 (F := Ideal) e)
              (broadcastInDim S2500000 ![] bcast_S_S2500000 (constantI S_ 32 0#32)))
            (addi (Read.val_main_v1 (F := Ideal) e)
              (broadcastInDim S2500000 ![] bcast_S_S2500000 (constantI S_ 32 100000#32)))
            (Read.val_main_v1 (F := Ideal) e)))))
    (broadcastInDim S100000x32 ![0, 1] bcast_S100000x1_S100000x32_0_1
      (broadcastInDim S100000x1 ![0] bcast_S100000_S100000x1_0
        (maximumf
          (Host.scatterAdd (F := Ideal) scatter_S100000_S2500000x1_S2500000_n_0_0_1
            (broadcastInDim S100000 ![] bcast_S_S100000 (constant (F := Ideal) S_ .f32 0x00000000#32))
            (broadcastInDim S2500000x1 ![0] bcast_S2500000_S2500000x1_0 (Read.val_main_v3 (F := Ideal) e))
            (broadcastInDim S2500000 ![] bcast_S_S2500000 (constant (F := Ideal) S_ .f32 0x3F800000#32)))
          (broadcastInDim S100000 ![] bcast_S_S100000 (constant (F := Ideal) S_ .f32 0x3F800000#32)))))

/-- The second layer's neighbour mean in the reference is `nm32` of the first layer's result. -/
theorem nm32_eq :
    Read.val_main_v50 (F := Ideal) x e w1l b1 w1r = nm32 (Read.val_main_v31 (F := Ideal) x e w1l b1 w1r) e := by
  unfold Read.val_main_v50 Read.val_main_v49 Read.val_main_v48 Read.val_main_v47 Read.val_main_v46 Read.val_main_cst_9
    Read.val_main_v45 Read.val_main_v44 Read.val_main_v43 Read.val_main_cst_8 Read.val_main_v42 Read.val_main_cst_7
    Read.val_main_v41 Read.val_main_v40 Read.val_main_v39 Read.val_main_cst_6 Read.val_main_v38 Read.val_main_v37
    Read.val_main_v36 Read.val_main_v35 Read.val_main_v34 Read.val_main_c_5 Read.val_main_v33 Read.val_main_v32
    Read.val_main_c_4 nm32
  with_reducible rfl

/-- The first layer: the layer of the input rows `x` and of their neighbour mean. -/
def h1 : Mat 100000 32 := Cert.Sage.layer (N := 100000) (K := 15) w1l w1r b1 (nm15 x e) x

/-- The second layer: the layer of the first layer's result and of its neighbour mean. -/
def h2 : Mat 100000 32 :=
  Cert.Sage.layer (N := 100000) (K := 32) w2l w2r b2 (nm32 (h1 x e w1l b1 w1r) e) (h1 x e w1l b1 w1r)

/-- A sum of products of a row of `X` with a row of `W`, read through index functions that are the pairs
    `(n, k)` and `(c, k)`, is the linear map `W` applied to row `n` of `X`, at `c`. -/
theorem sum_eq_lin {N C K : Nat} (W : Mat C K) (X : Mat N K) (n : Fin N) (c : Fin C)
    (li : Fin K → (⟨2, ![N, K]⟩ : Shape).Idx) (ri : Fin K → (⟨2, ![C, K]⟩ : Shape).Idx)
    (hl : ∀ k, li k = ix2 n k) (hr : ∀ k, ri k = ix2 c k) :
    ∑ k : Fin K, X (li k) * W (ri k) = lin W X (ix2 n c) := by
  rw [lin_apply]
  exact Finset.sum_congr rfl fun k _ => by rw [hl k, hr k, mul_comm]

/-- The first layer of the reference is the specification's layer of `x` and its neighbour mean. -/
theorem layer1 : Read.val_main_v31 (F := Ideal) x e w1l b1 w1r = h1 x e w1l b1 w1r := by
  funext j
  obtain ⟨n, f, rfl⟩ : ∃ (n : Fin 100000) (f : Fin 32), j = ix2 n f := ⟨j 0, j 1, eq_ix2 j⟩
  have hM : Read.val_main_v24 (F := Ideal) x e w1l (ix2 n f) = lin w1l (nm15 x e) (ix2 n f) := by
    rw [Read.val_main_v24_apply]
    simp only [Read.val_main_v23_apply]
    exact sum_eq_lin w1l (nm15 x e) n f (fun k => Read.lidx_main_v24 (ix2 n f) k)
      (fun k => Read.idx_main_v23 (Read.ridx_main_v24 (ix2 n f) k))
      (fun k => funext fun a => Fin.ext (by match a with | ⟨0, _⟩ => rfl | ⟨1, _⟩ => rfl))
      (fun k => funext fun a => Fin.ext (by match a with | ⟨0, _⟩ => rfl | ⟨1, _⟩ => rfl))
  have hX : Read.val_main_v29 (F := Ideal) x w1r (ix2 n f) = lin w1r x (ix2 n f) := by
    rw [Read.val_main_v29_apply]
    simp only [Read.val_main_v28_apply]
    exact sum_eq_lin w1r x n f (fun k => Read.lidx_main_v29 (ix2 n f) k)
      (fun k => Read.idx_main_v28 (Read.ridx_main_v29 (ix2 n f) k))
      (fun k => funext fun a => Fin.ext (by match a with | ⟨0, _⟩ => rfl | ⟨1, _⟩ => rfl))
      (fun k => funext fun a => Fin.ext (by match a with | ⟨0, _⟩ => rfl | ⟨1, _⟩ => rfl))
  have hb : Read.val_main_v26 (F := Ideal) b1 (ix2 n f) = b1 (ix1 f) := by
    rw [Read.val_main_v26_apply, Read.val_main_v25_apply]
    exact congrArg b1 (funext fun a => Fin.ext (by match a with | ⟨0, _⟩ => rfl))
  have hz : Read.val_main_call0_v0 (F := Ideal) (ix2 n f) = (0 : EReal) := by
    rw [Read.val_main_call0_v0_apply, Read.val_main_call0_cst_apply]
    exact Ideal.ofBits_zero_f32
  rw [Read.val_main_v31_apply, Read.val_main_v30_apply, Read.val_main_v27_apply, hM, hX, hb, hz]
  unfold h1
  rw [layer_apply]
  show max (lin w1l (nm15 x e) (ix2 n f) + b1 (ix1 f) + lin w1r x (ix2 n f)) 0 = _
  rw [add_right_comm]

/-- The second layer's neighbour mean in the reference is `nm32` of the specification's first layer. -/
theorem mean2 : Read.val_main_v50 (F := Ideal) x e w1l b1 w1r = nm32 (h1 x e w1l b1 w1r) e := by
  rw [nm32_eq, layer1]

/-- The second layer of the reference is the specification's layer of the first layer and its neighbour mean. -/
theorem layer2 : Read.val_main_v59 (F := Ideal) x e w1l b1 w1r w2l b2 w2r = h2 x e w1l b1 w1r w2l b2 w2r := by
  funext j
  obtain ⟨n, f, rfl⟩ : ∃ (n : Fin 100000) (f : Fin 32), j = ix2 n f := ⟨j 0, j 1, eq_ix2 j⟩
  have hM : Read.val_main_v52 (F := Ideal) x e w1l b1 w1r w2l (ix2 n f)
      = lin w2l (nm32 (h1 x e w1l b1 w1r) e) (ix2 n f) := by
    rw [Read.val_main_v52_apply, mean2]
    simp only [Read.val_main_v51_apply]
    exact sum_eq_lin w2l (nm32 (h1 x e w1l b1 w1r) e) n f (fun k => Read.lidx_main_v52 (ix2 n f) k)
      (fun k => Read.idx_main_v51 (Read.ridx_main_v52 (ix2 n f) k))
      (fun k => funext fun a => Fin.ext (by match a with | ⟨0, _⟩ => rfl | ⟨1, _⟩ => rfl))
      (fun k => funext fun a => Fin.ext (by match a with | ⟨0, _⟩ => rfl | ⟨1, _⟩ => rfl))
  have hX : Read.val_main_v57 (F := Ideal) x e w1l b1 w1r w2r (ix2 n f) = lin w2r (h1 x e w1l b1 w1r) (ix2 n f) := by
    rw [Read.val_main_v57_apply, layer1]
    simp only [Read.val_main_v56_apply]
    exact sum_eq_lin w2r (h1 x e w1l b1 w1r) n f (fun k => Read.lidx_main_v57 (ix2 n f) k)
      (fun k => Read.idx_main_v56 (Read.ridx_main_v57 (ix2 n f) k))
      (fun k => funext fun a => Fin.ext (by match a with | ⟨0, _⟩ => rfl | ⟨1, _⟩ => rfl))
      (fun k => funext fun a => Fin.ext (by match a with | ⟨0, _⟩ => rfl | ⟨1, _⟩ => rfl))
  have hb : Read.val_main_v54 (F := Ideal) b2 (ix2 n f) = b2 (ix1 f) := by
    rw [Read.val_main_v54_apply, Read.val_main_v53_apply]
    exact congrArg b2 (funext fun a => Fin.ext (by match a with | ⟨0, _⟩ => rfl))
  have hz : Read.val_main_call1_v0 (F := Ideal) (ix2 n f) = (0 : EReal) := by
    rw [Read.val_main_call1_v0_apply, Read.val_main_call1_cst_apply]
    exact Ideal.ofBits_zero_f32
  rw [Read.val_main_v59_apply, Read.val_main_v58_apply, Read.val_main_v55_apply, hM, hX, hb, hz]
  unfold h2
  rw [layer_apply]
  show max (lin w2l (nm32 (h1 x e w1l b1 w1r) e) (ix2 n f) + b2 (ix1 f) + lin w2r (h1 x e w1l b1 w1r) (ix2 n f)) 0 = _
  rw [add_right_comm]

/-- The reference's first result is the first head of the second layer. -/
theorem out_head : Read.val_main_v64 (F := Ideal) x e w1l b1 w1r w2l b2 w2r wh bh = Cert.Sage.head (N := 100000) (C := 3) wh bh (h2 x e w1l b1 w1r w2l b2 w2r) := by
  funext j
  obtain ⟨n, c, rfl⟩ : ∃ (n : Fin 100000) (c : Fin 3), j = ix2 n c := ⟨j 0, j 1, eq_ix2 j⟩
  have hH : Read.val_main_v61 (F := Ideal) x e w1l b1 w1r w2l b2 w2r wh (ix2 n c) = lin wh (h2 x e w1l b1 w1r w2l b2 w2r) (ix2 n c) := by
    rw [Read.val_main_v61_apply, layer2]
    simp only [Read.val_main_v60_apply]
    exact sum_eq_lin wh (h2 x e w1l b1 w1r w2l b2 w2r) n c (fun k => Read.lidx_main_v61 (ix2 n c) k)
      (fun k => Read.idx_main_v60 (Read.ridx_main_v61 (ix2 n c) k))
      (fun k => funext fun a => Fin.ext (by match a with | ⟨0, _⟩ => rfl | ⟨1, _⟩ => rfl))
      (fun k => funext fun a => Fin.ext (by match a with | ⟨0, _⟩ => rfl | ⟨1, _⟩ => rfl))
  have hb : Read.val_main_v63 (F := Ideal) bh (ix2 n c) = bh (ix1 c) := by
    rw [Read.val_main_v63_apply, Read.val_main_v62_apply]
    exact congrArg bh (funext fun a => Fin.ext (by match a with | ⟨0, _⟩ => rfl))
  rw [Read.val_main_v64_apply, hH, hb, head_apply]
  rfl

/-- The reference's second result is the second head of the second layer. -/
theorem out_mat : Read.val_main_v69 (F := Ideal) x e w1l b1 w1r w2l b2 w2r wm bm = Cert.Sage.head (N := 100000) (C := 8) wm bm (h2 x e w1l b1 w1r w2l b2 w2r) := by
  funext j
  obtain ⟨n, c, rfl⟩ : ∃ (n : Fin 100000) (c : Fin 8), j = ix2 n c := ⟨j 0, j 1, eq_ix2 j⟩
  have hH : Read.val_main_v66 (F := Ideal) x e w1l b1 w1r w2l b2 w2r wm (ix2 n c) = lin wm (h2 x e w1l b1 w1r w2l b2 w2r) (ix2 n c) := by
    rw [Read.val_main_v66_apply, layer2]
    simp only [Read.val_main_v65_apply]
    exact sum_eq_lin wm (h2 x e w1l b1 w1r w2l b2 w2r) n c (fun k => Read.lidx_main_v66 (ix2 n c) k)
      (fun k => Read.idx_main_v65 (Read.ridx_main_v66 (ix2 n c) k))
      (fun k => funext fun a => Fin.ext (by match a with | ⟨0, _⟩ => rfl | ⟨1, _⟩ => rfl))
      (fun k => funext fun a => Fin.ext (by match a with | ⟨0, _⟩ => rfl | ⟨1, _⟩ => rfl))
  have hb : Read.val_main_v68 (F := Ideal) bm (ix2 n c) = bm (ix1 c) := by
    rw [Read.val_main_v68_apply, Read.val_main_v67_apply]
    exact congrArg bm (funext fun a => Fin.ext (by match a with | ⟨0, _⟩ => rfl))
  rw [Read.val_main_v69_apply, hH, hb, head_apply]
  rfl

/-- The reference's third result is the third head of the second layer; its one column is column zero. -/
theorem out_len : Read.val_main_v74 (F := Ideal) x e w1l b1 w1r w2l b2 w2r wl bl = Cert.Sage.head (N := 100000) (C := 1) wl bl (h2 x e w1l b1 w1r w2l b2 w2r) := by
  funext j
  obtain ⟨n, c, rfl⟩ : ∃ (n : Fin 100000) (c : Fin 1), j = ix2 n c := ⟨j 0, j 1, eq_ix2 j⟩
  have hH : Read.val_main_v71 (F := Ideal) x e w1l b1 w1r w2l b2 w2r wl (ix2 n c) = lin wl (h2 x e w1l b1 w1r w2l b2 w2r) (ix2 n c) := by
    rw [Read.val_main_v71_apply, layer2]
    simp only [Read.val_main_v70_apply]
    exact sum_eq_lin wl (h2 x e w1l b1 w1r w2l b2 w2r) n c (fun k => Read.lidx_main_v71 (ix2 n c) k)
      (fun k => Read.idx_main_v70 (Read.ridx_main_v71 (ix2 n c) k))
      (fun k => funext fun a => Fin.ext (by match a with | ⟨0, _⟩ => rfl | ⟨1, _⟩ => rfl))
      (fun k => funext fun a => Fin.ext (by match a with | ⟨0, _⟩ => rfl | ⟨1, _⟩ => rfl))
  have hb : Read.val_main_v73 (F := Ideal) bl (ix2 n c) = bl (ix1 c) := by
    rw [Read.val_main_v73_apply, Read.val_main_v72_apply]
    exact congrArg bl (funext fun a => Fin.ext (by match a with | ⟨0, _⟩ => exact (Fin.val_eq_zero c).symm))
  rw [Read.val_main_v74_apply, hH, hb, head_apply]
  rfl

end Cert.Sage.Ref

end
-- ==== Proof.NbrMean.lean ====
/-
  The neighbour mean as the accelerator program's host operations spell it, and its agreement with the reference's.

  Both programs compute the mean over incoming edges with the same operations: the sources and targets are the two
  rows of the edge array; negative sources are wrapped around once; the rows of the operand at the sources are gathered
  and summed into a zero array at the targets; each row is divided by the larger of the number of incoming edges and
  one. The two programs' spellings differ only in the names of the dimension records, whose fields are equal, so
  the two functions are equal; nothing is said about which rows they read.
-/
import proofs.«111565_j57483842290347_1_alg».proof.Proof.Gen.KernelIdeal
import proofs.«111565_j57483842290347_1_alg».proof.Proof.RefValue

noncomputable section

namespace Cert.Sage.Nbr

open Idealize.ShloMosaic Idealize.ShloMosaic.TcCoe Idealize.SL.Sem
open Cert.KernelIdeal Cert.KernelIdeal.Facts₀ Cert.KernelIdeal.Facts

/-- The edges' sources: the first row of the edge array. -/
def src (e : (⟨S2x2500000, .i32⟩ : BufTy).Contents (Elt Ideal)) : (⟨S2500000, .i32⟩ : BufTy).Contents (Elt Ideal) :=
  shapeCast S2500000 (extractStridedSlice S1x2500000 ![0, 0] e slices_S2x2500000_S1x2500000_0_0) shapeCasts_S1x2500000_S2500000

/-- The edges' targets: the second row of the edge array. -/
def dst (e : (⟨S2x2500000, .i32⟩ : BufTy).Contents (Elt Ideal)) : (⟨S2500000, .i32⟩ : BufTy).Contents (Elt Ideal) :=
  shapeCast S2500000 (extractStridedSlice S1x2500000 ![1, 0] e slices_S2x2500000_S1x2500000_1_0) shapeCasts_S1x2500000_S2500000

/-- A negative index wrapped around once. -/
def wrap (s : (⟨S2500000, .i32⟩ : BufTy).Contents (Elt Ideal)) : (⟨S2500000, .i32⟩ : BufTy).Contents (Elt Ideal) :=
  select (cmpi .slt s (broadcastInDim S2500000 ![] bcast_S_S2500000 (constantI S_ 32 0#32)))
    (addi s (broadcastInDim S2500000 ![] bcast_S_S2500000 (constantI S_ 32 100000#32))) s

/-- The larger of the number of incoming edges and one, as a column. -/
def deg (d : (⟨S2500000, .i32⟩ : BufTy).Contents (Elt Ideal)) : (⟨S100000x1, .f32⟩ : BufTy).Contents (Elt Ideal) :=
  broadcastInDim S100000x1 ![0] bcast_S100000_S100000x1_0
    (maximumf
      (Host.scatterAdd (F := Ideal) scatter_S100000_S2500000x1_S2500000_n_0_0_1
        (broadcastInDim S100000 ![] bcast_S_S100000 (constant (F := Ideal) S_ .f32 0x00000000#32))
        (broadcastInDim S2500000x1 ![0] bcast_S2500000_S2500000x1_0 d)
        (broadcastInDim S2500000 ![] bcast_S_S2500000 (constant (F := Ideal) S_ .f32 0x3F800000#32)))
      (broadcastInDim S100000 ![] bcast_S_S100000 (constant (F := Ideal) S_ .f32 0x3F800000#32)))

/-- The neighbour mean of the rows of a 15-column array, from the sources `s` and targets `d`. -/
def nm15 (x : (⟨S100000x15, .f32⟩ : BufTy).Contents (Elt Ideal)) (s d : (⟨S2500000, .i32⟩ : BufTy).Contents (Elt Ideal)) :
    (⟨S100000x15, .f32⟩ : BufTy).Contents (Elt Ideal) :=
  Host.divf (F := Ideal)
    (Host.scatterAdd (F := Ideal) scatter_S100000x15_S2500000x1_S2500000x15_1_0_0_1
      (broadcastInDim S100000x15 ![] bcast_S_S100000x15 (constant (F := Ideal) S_ .f32 0x00000000#32))
      (broadcastInDim S2500000x1 ![0] bcast_S2500000_S2500000x1_0 d)
      (Host.gather gather_S100000x15_S2500000x1_S2500000x15_1_0_n_n_0_1_115 x (broadcastInDim S2500000x1 ![0] bcast_S2500000_S2500000x1_0 (wrap s))))
    (broadcastInDim S100000x15 ![0, 1] bcast_S100000x1_S100000x15_0_1 (deg d))

/-- The neighbour mean of the rows of a 32-column array. -/
def nm32 (x : (⟨S100000x32, .f32⟩ : BufTy).Contents (Elt Ideal)) (s d : (⟨S2500000, .i32⟩ : BufTy).Contents (Elt Ideal)) :
    (⟨S100000x32, .f32⟩ : BufTy).Contents (Elt Ideal) :=
  Host.divf (F := Ideal)
    (Host.scatterAdd (F := Ideal) scatter_S100000x32_S2500000x1_S2500000x32_1_0_0_1
      (broadcastInDim S100000x32 ![] bcast_S_S100000x32 (constant (F := Ideal) S_ .f32 0x00000000#32))
      (broadcastInDim S2500000x1 ![0] bcast_S2500000_S2500000x1_0 d)
      (Host.gather gather_S100000x32_S2500000x1_S2500000x32_1_0_n_n_0_1_132 x (broadcastInDim S2500000x1 ![0] bcast_S2500000_S2500000x1_0 (wrap s))))
    (broadcastInDim S100000x32 ![0, 1] bcast_S100000x1_S100000x32_0_1 (deg d))

/-! ## The two programs' dimension records have equal fields -/

theorem gather15_eq : gather_S100000x15_S2500000x1_S2500000x15_1_0_n_n_0_1_115 = Cert.ReferenceIdeal.gather_S100000x15_S2500000x1_S2500000x15_1_0_n_n_0_1_115 := rfl
theorem gather32_eq : gather_S100000x32_S2500000x1_S2500000x32_1_0_n_n_0_1_132 = Cert.ReferenceIdeal.gather_S100000x32_S2500000x1_S2500000x32_1_0_n_n_0_1_132 := rfl
theorem scatter15_eq : scatter_S100000x15_S2500000x1_S2500000x15_1_0_0_1 = Cert.ReferenceIdeal.scatter_S100000x15_S2500000x1_S2500000x15_1_0_0_1 := rfl
theorem scatter32_eq : scatter_S100000x32_S2500000x1_S2500000x32_1_0_0_1 = Cert.ReferenceIdeal.scatter_S100000x32_S2500000x1_S2500000x32_1_0_0_1 := rfl
theorem scatter1_eq : scatter_S100000_S2500000x1_S2500000_n_0_0_1 = Cert.ReferenceIdeal.scatter_S100000_S2500000x1_S2500000_n_0_0_1 := rfl

/-! ## The same functions as the reference's -/

theorem src_eq (e : (⟨S2x2500000, .i32⟩ : BufTy).Contents (Elt Ideal)) :
    src e = Cert.ReferenceIdeal.Read.val_main_v1 (F := Ideal) e := by
  unfold src Cert.ReferenceIdeal.Read.val_main_v1 Cert.ReferenceIdeal.Read.val_main_v0
  with_reducible rfl

theorem dst_eq (e : (⟨S2x2500000, .i32⟩ : BufTy).Contents (Elt Ideal)) :
    dst e = Cert.ReferenceIdeal.Read.val_main_v3 (F := Ideal) e := by
  unfold dst Cert.ReferenceIdeal.Read.val_main_v3 Cert.ReferenceIdeal.Read.val_main_v2
  with_reducible rfl

/-- The 32-column neighbour mean is the reference's. -/
theorem nm32_eq (h : (⟨S100000x32, .f32⟩ : BufTy).Contents (Elt Ideal)) (e : (⟨S2x2500000, .i32⟩ : BufTy).Contents (Elt Ideal)) :
    nm32 h (src e) (dst e) = Cert.Sage.Ref.nm32 h e := by
  unfold nm32 deg wrap Cert.Sage.Ref.nm32
  rw [src_eq, dst_eq, gather32_eq, scatter32_eq, scatter1_eq]
  try (with_reducible rfl)

/-- The 15-column neighbour mean is the reference's. -/
theorem nm15_eq (x : (⟨S100000x15, .f32⟩ : BufTy).Contents (Elt Ideal)) (e : (⟨S2x2500000, .i32⟩ : BufTy).Contents (Elt Ideal)) :
    nm15 x (src e) (dst e) = Cert.Sage.Ref.nm15 x e := by
  unfold nm15 deg wrap Cert.Sage.Ref.nm15
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_cst_3
    Cert.ReferenceIdeal.Read.val_main_v17 Cert.ReferenceIdeal.Read.val_main_v16 Cert.ReferenceIdeal.Read.val_main_v15
    Cert.ReferenceIdeal.Read.val_main_cst_2 Cert.ReferenceIdeal.Read.val_main_v14 Cert.ReferenceIdeal.Read.val_main_cst_1
    Cert.ReferenceIdeal.Read.val_main_v13 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4
    Cert.ReferenceIdeal.Read.val_main_c
  rw [src_eq, dst_eq, gather15_eq, scatter15_eq, scatter1_eq]
  try (with_reducible rfl)

end Cert.Sage.Nbr

end
-- ==== Proof.SpecCongr.lean ====
/-
  Entry-wise congruence of the transposed layer and head: an entry (f, n) of `W · A` reads row `f` of `W` and column
  `n` of `A` only, so two layers (heads) agree at a pair of entries as soon as those rows, columns and bias entries
  agree. This is what lets a layer computed block of columns by block of columns be compared with the layer of the
  whole arrays, and a layer of zero-padded arrays with the layer of the arrays themselves.
-/
import proofs.«111565_j57483842290347_1_alg».proof.Proof.Spec

noncomputable section

namespace Cert.Sage

open Idealize.ShloMosaic Idealize.ShloMosaic.ValueIdx Cert.Lib.PlainDot

theorem mm_congr {C C' K N N' : Nat} (W : Mat C K) (W' : Mat C' K) (A : Mat K N) (A' : Mat K N')
    (c : Fin C) (c' : Fin C') (n : Fin N) (n' : Fin N')
    (hW : ∀ k : Fin K, W' (ix2 c' k) = W (ix2 c k)) (hA : ∀ k : Fin K, A' (ix2 k n') = A (ix2 k n)) :
    mm W' A' (ix2 c' n') = mm W A (ix2 c n) := by
  rw [mm_apply, mm_apply]
  exact Finset.sum_congr rfl fun k _ => by rw [hW k, hA k]

theorem layerT_congr {K N N' : Nat} (Wl Wr Wl' Wr' : Mat 32 K) (b b' : Mat 32 1) (Mt Xt : Mat K N) (Mt' Xt' : Mat K N')
    (f : Fin 32) (n : Fin N) (n' : Fin N')
    (hWl : ∀ k : Fin K, Wl' (ix2 f k) = Wl (ix2 f k)) (hWr : ∀ k : Fin K, Wr' (ix2 f k) = Wr (ix2 f k))
    (hb : b' (ix2 f 0) = b (ix2 f 0))
    (hM : ∀ k : Fin K, Mt' (ix2 k n') = Mt (ix2 k n)) (hX : ∀ k : Fin K, Xt' (ix2 k n') = Xt (ix2 k n)) :
    layerT Wl' Wr' b' Mt' Xt' (ix2 f n') = layerT Wl Wr b Mt Xt (ix2 f n) := by
  rw [layerT_apply, layerT_apply, mm_congr Wl Wl' Mt Mt' f f n n' hWl hM, mm_congr Wr Wr' Xt Xt' f f n n' hWr hX, hb]

theorem headT_congr {C N N' : Nat} (W W' : Mat C 32) (b b' : Mat C 1) (Ht : Mat 32 N) (Ht' : Mat 32 N')
    (c : Fin C) (n : Fin N) (n' : Fin N')
    (hW : ∀ k : Fin 32, W' (ix2 c k) = W (ix2 c k)) (hb : b' (ix2 c 0) = b (ix2 c 0))
    (hH : ∀ k : Fin 32, Ht' (ix2 k n') = Ht (ix2 k n)) :
    headT W' b' Ht' (ix2 c n') = headT W b Ht (ix2 c n) := by
  rw [headT_apply, headT_apply, mm_congr W W' Ht Ht' c c n n' hW hH, hb]

end Cert.Sage

end
-- ==== Proof.Region0.lean ====
/-
  The first accelerator region: what its output array holds when the region ends.

  The grid has seven points. At point `t` the two node operands' windows are columns `16384 t … 16384 t + 16383` of
  their [15, 114688] arrays, the two weights and the bias column are whole, and the body stores the transposed layer of
  those blocks as columns `16384 t …` of the [32, 114688] output. A column of the layer reads the same column of the
  node operands only, so every block written back is a block of ONE function of the region's arrays — the transposed
  layer of the whole arrays — and the seven blocks cover the output.
-/
import proofs.«111565_j57483842290347_1_alg».proof.Proof.Gen.KernelIdeal.Frame
import proofs.«111565_j57483842290347_1_alg».proof.Proof.SpecCongr
import Idealize.ShloMosaic.Lib.Pipeline.Value

set_option maxRecDepth 16384

noncomputable section

namespace Cert.Sage.Reg0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The windows' block indices at every grid point: the node operands and the output move along the second axis
    with the point, the weights and the bias stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The region's output as one function of its arrays at entry: the transposed layer of the whole arrays. -/
def G (c : Dev nD) : S32x114688.Idx → EReal :=
  Cert.Sage.layerT (V c main_arg2 : S32x15.Idx → EReal) (V c main_arg4 : S32x15.Idx → EReal)
    (V c main_v27 : S32x1.Idx → EReal) (V c main_v26 : S15x114688.Idx → EReal) (V c main_v24 : S15x114688.Idx → EReal)

/-- A node operand's block at point `t`, entry (k, n), is the array at (k, 16384 t + n). -/
theorem blk0 (c : Dev nD) (t : Fin cfg0.N) (k : Fin 15) (n : Fin 16384) (n' : Fin 114688)
    (hn : n'.val = t.val * 16384 + n.val) :
    (iblk0 V c 0 t : S15x16384.Idx → EReal) (ix2 k n) = (V c main_v26 : S15x114688.Idx → EReal) (ix2 k n') := by
  obtain ⟨e0, e1, -⟩ := idx_facts t
  unfold iblk0
  rw [View.read_apply]
  show (V c main_v26 : S15x114688.Idx → EReal) _ = _
  refine congrArg _ (funext fun a => Fin.ext ?_)
  match a with
  | ⟨0, _⟩ => show win0_0.index t (0 : Fin 2) * 15 + 1 * k.val = k.val; rw [e0]; omega
  | ⟨1, _⟩ => show win0_0.index t (1 : Fin 2) * 16384 + 1 * n.val = n'.val; rw [e1, hn]; omega

theorem blk1 (c : Dev nD) (t : Fin cfg0.N) (k : Fin 15) (n : Fin 16384) (n' : Fin 114688)
    (hn : n'.val = t.val * 16384 + n.val) :
    (iblk0 V c 1 t : S15x16384.Idx → EReal) (ix2 k n) = (V c main_v24 : S15x114688.Idx → EReal) (ix2 k n') := by
  obtain ⟨-, -, e0, e1, -⟩ := idx_facts t
  unfold iblk0
  rw [View.read_apply]
  show (V c main_v24 : S15x114688.Idx → EReal) _ = _
  refine congrArg _ (funext fun a => Fin.ext ?_)
  match a with
  | ⟨0, _⟩ => show win0_1.index t (0 : Fin 2) * 15 + 1 * k.val = k.val; rw [e0]; omega
  | ⟨1, _⟩ => show win0_1.index t (1 : Fin 2) * 16384 + 1 * n.val = n'.val; rw [e1, hn]; omega

/-- The weights' and the bias column's blocks are the whole arrays. -/
theorem blk2 (c : Dev nD) (t : Fin cfg0.N) (f : Fin 32) (k : Fin 15) :
    (iblk0 V c 2 t : S32x15.Idx → EReal) (ix2 f k) = (V c main_arg2 : S32x15.Idx → EReal) (ix2 f k) := by
  obtain ⟨-, -, -, -, e0, e1, -⟩ := idx_facts t
  unfold iblk0
  rw [View.read_apply]
  show (V c main_arg2 : S32x15.Idx → EReal) _ = _
  refine congrArg _ (funext fun a => Fin.ext ?_)
  match a with
  | ⟨0, _⟩ => show win0_2.index t (0 : Fin 2) * 32 + 1 * f.val = f.val; rw [e0]; omega
  | ⟨1, _⟩ => show win0_2.index t (1 : Fin 2) * 15 + 1 * k.val = k.val; rw [e1]; omega

theorem blk3 (c : Dev nD) (t : Fin cfg0.N) (f : Fin 32) (k : Fin 15) :
    (iblk0 V c 3 t : S32x15.Idx → EReal) (ix2 f k) = (V c main_arg4 : S32x15.Idx → EReal) (ix2 f k) := by
  obtain ⟨-, -, -, -, -, -, e0, e1, -⟩ := idx_facts t
  unfold iblk0
  rw [View.read_apply]
  show (V c main_arg4 : S32x15.Idx → EReal) _ = _
  refine congrArg _ (funext fun a => Fin.ext ?_)
  match a with
  | ⟨0, _⟩ => show win0_3.index t (0 : Fin 2) * 32 + 1 * f.val = f.val; rw [e0]; omega
  | ⟨1, _⟩ => show win0_3.index t (1 : Fin 2) * 15 + 1 * k.val = k.val; rw [e1]; omega

theorem blk4 (c : Dev nD) (t : Fin cfg0.N) (f : Fin 32) :
    (iblk0 V c 4 t : S32x1.Idx → EReal) (ix2 f 0) = (V c main_v27 : S32x1.Idx → EReal) (ix2 f 0) := by
  obtain ⟨-, -, -, -, -, -, -, -, e0, e1, -⟩ := idx_facts t
  unfold iblk0
  rw [View.read_apply]
  show (V c main_v27 : S32x1.Idx → EReal) _ = _
  refine congrArg _ (funext fun a => Fin.ext ?_)
  match a with
  | ⟨0, _⟩ => show win0_4.index t (0 : Fin 2) * 32 + 1 * f.val = f.val; rw [e0]; omega
  | ⟨1, _⟩ => show win0_4.index t (1 : Fin 2) * 1 + 1 * 0 = 0; rw [e1]

variable (hpay : ∀ (v0 v3 : Vec Ideal S15x16384 .f32) (v6 v8 : Vec Ideal S32x15 .f32) (v13 : Vec Ideal S32x1 .f32),
  k0_pay1 (F := Ideal) v0 v3 v6 v8 v13 = Cert.Sage.layerT v6 v8 v13 v0 v3)

include hpay in
/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S15x16384) hz, View.ld_unit_zero (S := S32x15) hz, View.ld_unit_zero (S := S32x1) hz]
  rw [hpay]
  obtain ⟨-, -, -, -, -, -, -, -, -, -, e0, e1⟩ := idx_facts t
  funext j
  obtain ⟨f, n, rfl⟩ : ∃ (f : Fin 32) (n : Fin 16384), j = ix2 f n := ⟨j 0, j 1, eq_ix2 j⟩
  have hlt : t.val * 16384 + n.val < 114688 := by
    have ht : t.val < 7 := lt_of_lt_of_eq t.isLt N_0
    have := n.isLt; omega
  show Cert.Sage.layerT (iblk0 V c 2 t : S32x15.Idx → EReal) (iblk0 V c 3 t : S32x15.Idx → EReal) (iblk0 V c 4 t : S32x1.Idx → EReal)
      (iblk0 V c 0 t : S15x16384.Idx → EReal) (iblk0 V c 1 t : S15x16384.Idx → EReal) (ix2 f n)
    = G V c (((cfg0.win 5).blk t).view.emb (ix2 f n))
  have he : ((cfg0.win 5).blk t).view.emb (ix2 f n) = (ix2 f ⟨t.val * 16384 + n.val, hlt⟩ : S32x114688.Idx) := by
    funext a; apply Fin.ext
    match a with
    | ⟨0, _⟩ => show win0_5.index t (0 : Fin 2) * 32 + 1 * f.val = f.val; rw [e0]; omega
    | ⟨1, _⟩ => show win0_5.index t (1 : Fin 2) * 16384 + 1 * n.val = t.val * 16384 + n.val; rw [e1]; omega
  rw [he]
  unfold G
  exact Cert.Sage.layerT_congr (V c main_arg2 : S32x15.Idx → EReal) (V c main_arg4 : S32x15.Idx → EReal)
    (iblk0 V c 2 t : S32x15.Idx → EReal) (iblk0 V c 3 t : S32x15.Idx → EReal)
    (V c main_v27 : S32x1.Idx → EReal) (iblk0 V c 4 t : S32x1.Idx → EReal)
    (V c main_v26 : S15x114688.Idx → EReal) (V c main_v24 : S15x114688.Idx → EReal)
    (iblk0 V c 0 t : S15x16384.Idx → EReal) (iblk0 V c 1 t : S15x16384.Idx → EReal)
    f ⟨t.val * 16384 + n.val, hlt⟩ n
    (fun k => blk2 V c t f k) (fun k => blk3 V c t f k) (blk4 V c t f)
    (fun k => blk0 V c t k n ⟨t.val * 16384 + n.val, hlt⟩ rfl) (fun k => blk1 V c t k n ⟨t.val * 16384 + n.val, hlt⟩ rfl)

/-- An index of the output array is in point `t`'s block iff each coordinate is in the block's range on its axis. -/
theorem mem_blk (t : Fin cfg0.N) (i : S32x114688.Idx) :
    i ∈ ((cfg0.win 5).blk t).view.set ↔ ∀ a : Fin 2, win0_5.index t a * S32x16384.size a ≤ (i a).val ∧ (i a).val < win0_5.index t a * S32x16384.size a + S32x16384.size a := by
  show i ∈ ((View.whole main_v28).slice (win0_5.rect t)).set ↔ _
  rw [View.set_slice_whole, Rect.mem_set_unit]
  exact Iff.rfl

include hpay in
/-- The output array when the region ends: the transposed layer of the region's arrays at entry. -/
theorem final (c : Dev nD) : (dat0 (F := Ideal) V c).arrAt 5 cfg0.N = G V c :=
  (dat0 (F := Ideal) V c).arrAt_eq_of_cover 5 (G V c) (fun t _ => flushed_eq V hpay c t) fun i => by
    have hi0 : (i 0).val < 32 := (i 0).isLt
    have hi1 : (i 1).val < 114688 := (i 1).isLt
    have hN : cfg0.N = 7 := N_0
    refine ⟨⟨(i 1).val / 16384, by rw [hN]; omega⟩, flush0_5 _, ?_⟩
    rw [mem_blk]
    obtain ⟨-, -, -, -, -, -, -, -, -, -, e0, e1⟩ := idx_facts ⟨(i 1).val / 16384, by rw [hN]; omega⟩
    intro a
    match a with
    | ⟨0, _⟩ => show win0_5.index _ (0 : Fin 2) * 32 ≤ (i 0).val ∧ (i 0).val < win0_5.index _ (0 : Fin 2) * 32 + 32; rw [e0]; omega
    | ⟨1, _⟩ => show win0_5.index _ (1 : Fin 2) * 16384 ≤ (i 1).val ∧ (i 1).val < win0_5.index _ (1 : Fin 2) * 16384 + 16384; rw [e1]; show (i 1).val / 16384 * 16384 ≤ (i 1).val ∧ (i 1).val < (i 1).val / 16384 * 16384 + 16384; omega

end Cert.Sage.Reg0

end
-- ==== Proof.Payload.lean ====
/-
  What the two kernel bodies compute, as whole-block functions over the extended reals.

  At the exact values a change of float format is the identity, the zero word is the number 0, a shape cast of a
  shape onto itself is the identity, and a matrix product into the zero accumulator is the plain product
  (i, j) ↦ ∑ k, l (i, k) · r (k, j).  So the first body's stored block is
      (f, n) ↦ max (∑ k, Wl (f, k) · Mt (k, n) + ∑ k, Wr (f, k) · Xt (k, n) + b (f, 0)) 0,
  the transposed layer of the specification; the second body computes the same layer on its own operands and
  then three linear heads of it, each
      (c, n) ↦ ∑ k, W (c, k) · H (k, n) + b (c, 0),
  the transposed head of the specification.  Every step is an equality of functions read index by index; no
  law of arithmetic is used at all: both sides are the same expression.
-/
import proofs.«111565_j57483842290347_1_alg».proof.Proof.Gen.KernelIdeal.Skeleton
import proofs.«111565_j57483842290347_1_alg».proof.Proof.Spec
import Idealize.ShloMosaic.Lib.Pipeline.Value

noncomputable section

namespace Cert.Sage.Pay

open Idealize.ShloMosaic Idealize.ShloMosaic.ValueIdx Cert.Lib.PlainDot Cert.KernelIdeal Cert.KernelIdeal.Gen

/-! ## Single operations on whole blocks -/

/-- A one-column array `[a, 1]` broadcast to `[a, b]` reads, at `(p, c)`, the operand's row `p`. -/
theorem broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A narrowing change of format of a whole block of extended reals is the block itself. -/
theorem truncf_self {s : Shape} {φ : FTy} (ψ : FTy) (a : FVec Ideal s φ) (h : ψ.bits < φ.bits) :
    (truncf ψ a h : FVec Ideal s ψ) = a := rfl

/-- The scalar zero word is the number zero. -/
theorem scalar_zero : Scalar.ofBits (F := Ideal) .f32 0x00000000#32 = (0 : EReal) := Ideal.ofBits_zero_f32

/-! ## The two shapes of body, for any sizes -/

/-- The layer's arithmetic, for any number `K` of input features and `N` of columns: two products into zero
    accumulators, summed, plus the bias column broadcast along the columns, then the maximum with zero, is the
    transposed layer of the specification. -/
theorem layer_core {K N : Nat} (d : DotDims ⟨2, ![32, K]⟩ ⟨2, ![K, N]⟩ ⟨2, ![32, N]⟩) (hd : d = DotDims.plain 32 K N)
    (hx : (⟨2, ![K, N]⟩ : Shape).ShapeCasts ⟨2, ![K, N]⟩) (hb : (⟨2, ![32, 1]⟩ : Shape).ShapeCasts ⟨2, ![32, 1]⟩)
    (hbr : (⟨2, ![32, 1]⟩ : Shape).Broadcasts ⟨2, ![32, N]⟩) (hlt : FTy.bits .bf16 < FTy.bits .f32)
    (v0 v3 : FVec Ideal ⟨2, ![K, N]⟩ .f32) (v6 v8 : FVec Ideal ⟨2, ![32, K]⟩ .f32) (v13 : FVec Ideal ⟨2, ![32, 1]⟩ .f32) :
    maximumf
      (addf
        (addf
          (matmul d none (truncf .bf16 v6 hlt) (truncf .bf16 (shapeCast ⟨2, ![K, N]⟩ v0 hx) hlt)
            (constant ⟨2, ![32, N]⟩ .f32 0x00000000#32))
          (matmul d none (truncf .bf16 v8 hlt) (truncf .bf16 (shapeCast ⟨2, ![K, N]⟩ v3 hx) hlt)
            (constant ⟨2, ![32, N]⟩ .f32 0x00000000#32)))
        (broadcastTo ⟨2, ![32, N]⟩ (shapeCast ⟨2, ![32, 1]⟩ v13 hb) hbr))
      (broadcast ⟨2, ![32, N]⟩ (Scalar.ofBits (F := Ideal) .f32 0x00000000#32))
      = layerT v6 v8 v13 v0 v3 := by
  subst hd
  rw [shapeCast_self v0 hx, shapeCast_self v3 hx, shapeCast_self v13 hb, truncf_self, truncf_self, truncf_self, truncf_self,
    matmul_zero, matmul_zero, scalar_zero]
  funext j
  obtain ⟨f, n, rfl⟩ : ∃ (f : Fin 32) (n : Fin N), j = ix2 f n := ⟨j 0, j 1, eq_ix2 j⟩
  rw [layerT_apply, maximumf_apply, addf_apply, addf_apply, broadcast_apply, broadcastTo_col]

/-- A head's arithmetic, for any number `C` of outputs and `N` of columns: a product into the zero accumulator plus
    the bias column broadcast along the columns is the transposed head of the specification. -/
theorem head_core {C N : Nat} (d : DotDims ⟨2, ![C, 32]⟩ ⟨2, ![32, N]⟩ ⟨2, ![C, N]⟩) (hd : d = DotDims.plain C 32 N)
    (hb : (⟨2, ![C, 1]⟩ : Shape).ShapeCasts ⟨2, ![C, 1]⟩) (hbr : (⟨2, ![C, 1]⟩ : Shape).Broadcasts ⟨2, ![C, N]⟩)
    (hlt : FTy.bits .bf16 < FTy.bits .f32)
    (W : FVec Ideal ⟨2, ![C, 32]⟩ .f32) (b : FVec Ideal ⟨2, ![C, 1]⟩ .f32) (H : FVec Ideal ⟨2, ![32, N]⟩ .bf16) :
    addf
      (matmul d none (truncf .bf16 W hlt) H (constant ⟨2, ![C, N]⟩ .f32 0x00000000#32))
      (broadcastTo ⟨2, ![C, N]⟩ (shapeCast ⟨2, ![C, 1]⟩ b hb) hbr)
      = headT W b H := by
  subst hd
  rw [shapeCast_self b hb, truncf_self, matmul_zero]
  funext j
  obtain ⟨c, n, rfl⟩ : ∃ (c : Fin C) (n : Fin N), j = ix2 c n := ⟨j 0, j 1, eq_ix2 j⟩
  rw [headT_apply, addf_apply, broadcastTo_col]

/-! ## The printed dimension numbers are the plain ones -/

/-- The first body's dimension numbers are those of a plain 32×15 by 15×16384 product. -/
theorem dot_15 : dot_S32x15_S15x16384_S32x16384_1_0_0_1_n_n = DotDims.plain 32 15 16384 := rfl
/-- The second layer's dimension numbers are those of a plain 32×32 by 32×16384 product. -/
theorem dot_32 : dot_S32x32_S32x16384_S32x16384_1_0_0_1_n_n = DotDims.plain 32 32 16384 := rfl
/-- The three-row head's dimension numbers are those of a plain 3×32 by 32×16384 product. -/
theorem dot_3 : dot_S3x32_S32x16384_S3x16384_1_0_0_1_n_n = DotDims.plain 3 32 16384 := rfl
/-- The eight-row head's dimension numbers are those of a plain 8×32 by 32×16384 product. -/
theorem dot_8 : dot_S8x32_S32x16384_S8x16384_1_0_0_1_n_n = DotDims.plain 8 32 16384 := rfl
/-- The one-row head's dimension numbers are those of a plain 1×32 by 32×16384 product. -/
theorem dot_1 : dot_S1x32_S32x16384_S1x16384_1_0_0_1_n_n = DotDims.plain 1 32 16384 := rfl

/-! ## The payloads -/

/-- The block the first body stores is the transposed first layer of its operands: neighbour means `v0` through `v6`,
    the nodes' own features `v3` through `v8`, the bias column `v13`, then the positive part. -/
theorem pay_layer1 (v0 v3 : Vec Ideal S15x16384 .f32) (v6 v8 : Vec Ideal S32x15 .f32) (v13 : Vec Ideal S32x1 .f32) :
    k0_pay1 (F := Ideal) v0 v3 v6 v8 v13 = Cert.Sage.layerT v6 v8 v13 v0 v3 :=
  layer_core _ dot_15 _ _ _ _ v0 v3 v6 v8 v13

/-- The second body's hidden block is the transposed second layer of its operands. -/
theorem pay_hidden (v0 v3 : Vec Ideal S32x16384 .f32) (v6 v8 : Vec Ideal S32x32 .f32) (v13 : Vec Ideal S32x1 .f32) :
    k1_pay3 (F := Ideal) v0 v3 v6 v8 v13 = Cert.Sage.layerT v6 v8 v13 v0 v3 :=
  (truncf_self (φ := .f32) .bf16 _ bitsLt_bf16_f32).trans (layer_core _ dot_32 _ _ _ _ v0 v3 v6 v8 v13)

/-- The three-row output block is the transposed head `v20`, `v23` of the hidden block. -/
theorem pay_head (v0 v3 : Vec Ideal S32x16384 .f32) (v6 v8 : Vec Ideal S32x32 .f32) (v13 : Vec Ideal S32x1 .f32)
    (v20 : Vec Ideal S3x32 .f32) (v23 : Vec Ideal S3x1 .f32) :
    k1_pay4 (F := Ideal) v0 v3 v6 v8 v13 v20 v23 = Cert.Sage.headT v20 v23 (Cert.Sage.layerT v6 v8 v13 v0 v3) := by
  rw [← pay_hidden v0 v3 v6 v8 v13]
  exact head_core _ dot_3 _ _ _ v20 v23 (k1_pay3 (F := Ideal) v0 v3 v6 v8 v13)

/-- The eight-row output block — the product computed in one part of the body, the bias added in the next — is the
    transposed head `v28`, `v31` of the hidden block. -/
theorem pay_mat (v0 v3 : Vec Ideal S32x16384 .f32) (v6 v8 : Vec Ideal S32x32 .f32) (v13 : Vec Ideal S32x1 .f32)
    (v28 : Vec Ideal S8x32 .f32) (v31 : Vec Ideal S8x1 .f32) :
    k1_pay1 (F := Ideal) (k1_pay5 (F := Ideal) v0 v3 v6 v8 v13 v28) (k1_pay6 (F := Ideal) v31)
      = Cert.Sage.headT v28 v31 (Cert.Sage.layerT v6 v8 v13 v0 v3) := by
  rw [← pay_hidden v0 v3 v6 v8 v13]
  exact head_core _ dot_8 _ _ _ v28 v31 (k1_pay3 (F := Ideal) v0 v3 v6 v8 v13)

/-- The one-row output block is the transposed head `v36`, `v39` of the hidden block. -/
theorem pay_len (v0 v3 : Vec Ideal S32x16384 .f32) (v6 v8 : Vec Ideal S32x32 .f32) (v13 : Vec Ideal S32x1 .f32)
    (v36 : Vec Ideal S1x32 .f32) (v39 : Vec Ideal S1x1 .f32) :
    k1_pay2 (F := Ideal) (k1_pay3 (F := Ideal) v0 v3 v6 v8 v13) v36 v39
      = Cert.Sage.headT v36 v39 (Cert.Sage.layerT v6 v8 v13 v0 v3) := by
  rw [← pay_hidden v0 v3 v6 v8 v13]
  exact head_core _ dot_1 _ _ _ v36 v39 (k1_pay3 (F := Ideal) v0 v3 v6 v8 v13)

end Cert.Sage.Pay

end
-- ==== Proof.HostLayout.lean ====
/-
  Three layout compositions of the host program read at an index.

  The host feeds the kernels node arrays with the nodes along the second axis, zero-padded to a whole number of
  column blocks, and reads the results back by dropping the padding columns and transposing.  Read at an index:

  * the padded transpose of X at (k, n'), for a column n' below the number of nodes, is X at (n', k): the padding
    value never shows there;
  * the transpose of the first 100000 columns of A at (n, c) is A at (c, n);
  * a vector viewed as one column reads, at (f, 0), its entry f.

  All three hold for any element type and any small extent, and for whatever evidence of the shape relations the
  operations are given.
-/
import Idealize.ShloMosaic.Lib.KernelVsHost
import Idealize.ShloMosaic.Lib.ValueLayout
import proofs.«111565_j57483842290347_1_alg».proof.Proof.Spec

noncomputable section

namespace Cert.Sage.Layout

open Idealize.ShloMosaic Idealize.ShloMosaic.ValueIdx

/-- A node array `X` (one row per node, `K` columns) transposed and then padded on the right of its second axis from
    100000 to 114688 columns with the value `v`: at `(k, n')` with `n'` the column of node `n`, it is `X` at `(n, k)`. -/
theorem padT_apply {K : Nat} {α : Type} (X : (⟨2, ![100000, K]⟩ : Shape).Idx → α)
    (ht : (⟨2, ![100000, K]⟩ : Shape).Transposes [1, 0] ⟨2, ![K, 100000]⟩)
    {u : Shape} (v : u.Idx → α)
    (hp : (⟨2, ![K, 100000]⟩ : Shape).Pads ![0, 0] ![0, 14688] ![0, 0] ⟨2, ![K, 114688]⟩) (hS : 0 < u.numel)
    (k : Fin K) (n : Fin 100000) (n' : Fin 114688) (hn : n'.val = n.val) :
    pad ⟨2, ![K, 114688]⟩ ![0, 0] ![0, 14688] ![0, 0] (transpose ⟨2, ![K, 100000]⟩ [1, 0] X ht) v hp hS (ix2 k n')
      = X (ix2 n k) := by
  rw [pad_apply_of_inside ![0, 0] ![0, 14688] ![0, 0] (transpose ⟨2, ![K, 100000]⟩ [1, 0] X ht) v hp hS (ix2 k n') (ix2 k n)
    (fun a => by
      match a with
      | ⟨0, _⟩ => show k.val = 0 + k.val * (0 + 1); omega
      | ⟨1, _⟩ => show n'.val = 0 + n.val * (0 + 1); omega)]
  exact transpose_ix2_apply X ht k n

/-- The first 100000 columns of a `C`-row array `A` of 114688 columns, transposed: at `(n, c)` it is `A` at `(c, n')`,
    `n'` the column of node `n`. -/
theorem sliceT_apply {C : Nat} {α : Type} (A : (⟨2, ![C, 114688]⟩ : Shape).Idx → α)
    (hs : (⟨2, ![C, 114688]⟩ : Shape).Slices ![0, 0] ⟨2, ![C, 100000]⟩)
    (ht : (⟨2, ![C, 100000]⟩ : Shape).Transposes [1, 0] ⟨2, ![100000, C]⟩)
    (n : Fin 100000) (c : Fin C) (n' : Fin 114688) (hn : n'.val = n.val) :
    transpose ⟨2, ![100000, C]⟩ [1, 0] (extractStridedSlice ⟨2, ![C, 100000]⟩ ![0, 0] A hs) ht (ix2 n c)
      = A (ix2 c n') := by
  rw [transpose_ix2_apply (extractStridedSlice ⟨2, ![C, 100000]⟩ ![0, 0] A hs) ht n c]
  exact extractStridedSlice_apply ![0, 0] A hs (ix2 c n) (ix2 c n') fun a => by
    match a with
    | ⟨0, _⟩ => show c.val = 0 + c.val; omega
    | ⟨1, _⟩ => show n'.val = 0 + n.val; omega

/-- A vector of `a` entries viewed as an `a` by 1 array reads, at `(f, 0)`, its entry `f`. -/
theorem col_apply {a : Nat} {α : Type} (b : (⟨1, ![a]⟩ : Shape).Idx → α)
    (h : (⟨1, ![a]⟩ : Shape).ShapeCasts ⟨2, ![a, 1]⟩) (f : Fin a) :
    shapeCast ⟨2, ![a, 1]⟩ b h (ix2 f 0) = b (ix1 f) :=
  shapeCast_apply b h (ix2 f (0 : Fin 1)) (ix1 f) (by
    rw [Shape.rowMajor_val_two, Shape.rowMajor_val_one]
    show f.val = f.val * 1 + 0
    omega)

end Cert.Sage.Layout

end
-- ==== Proof.Walk0.lean ====
/-
  The first half of the accelerator program, read: the host operations before the first region, the region, and the
  first layer's result.

  Before the first region the host computes the neighbour mean of the input rows, transposes it and the input rows
  and pads both with zero columns up to 114688 = 7 · 16384, and recasts the first bias as a column. The region then
  leaves the transposed layer of those arrays in its output. Cut back to the first 100000 columns and transposed, that
  output is the first layer of the specification: a column below 100000 of a zero-padded transpose is the row itself,
  so the padding never shows.
-/
import proofs.«111565_j57483842290347_1_alg».proof.Proof.Gen.KernelIdeal.Frame
import proofs.«111565_j57483842290347_1_alg».proof.Proof.NbrMean
import proofs.«111565_j57483842290347_1_alg».proof.Proof.Region0
import proofs.«111565_j57483842290347_1_alg».proof.Proof.Payload
import proofs.«111565_j57483842290347_1_alg».proof.Proof.HostLayout
import Idealize.ShloMosaic.Lib.StableHlo.Run

set_option maxRecDepth 16384
set_option quotPrecheck false

noncomputable section

namespace Cert.Sage.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

local notation "a_x" => (m ((c : Thread nD τ).loc main_arg0))
local notation "a_e" => (m ((c : Thread nD τ).loc main_arg1))
local notation "a_w1l" => (m ((c : Thread nD τ).loc main_arg2))
local notation "a_b1" => (m ((c : Thread nD τ).loc main_arg3))
local notation "a_w1r" => (m ((c : Thread nD τ).loc main_arg4))
local notation "a_w2l" => (m ((c : Thread nD τ).loc main_arg5))
local notation "a_b2" => (m ((c : Thread nD τ).loc main_arg6))
local notation "a_w2r" => (m ((c : Thread nD τ).loc main_arg7))
local notation "a_wh" => (m ((c : Thread nD τ).loc main_arg8))
local notation "a_bh" => (m ((c : Thread nD τ).loc main_arg9))
local notation "a_wm" => (m ((c : Thread nD τ).loc main_arg10))
local notation "a_bm" => (m ((c : Thread nD τ).loc main_arg11))
local notation "a_wl" => (m ((c : Thread nD τ).loc main_arg12))
local notation "a_bl" => (m ((c : Thread nD τ).loc main_arg13))

/-- The transpose of a 15-column array, padded with zero columns up to 114688. -/
def padT15 (y : (⟨S100000x15, .f32⟩ : BufTy).Contents (Elt Ideal)) : (⟨S15x114688, .f32⟩ : BufTy).Contents (Elt Ideal) :=
  pad S15x114688 ![0, 0] ![0, 14688] ![0, 0] (transpose S15x100000 [1, 0] y transposes_S100000x15_S15x100000_1_0)
    (sitofp (F := Ideal) .f32 (constantI S_ 32 0#32)) pads_S15x100000_S15x114688_000_0146880 h_S_

/-- The first 100000 columns of a [32, 114688] array, transposed. -/
def sliceT32 (A : (⟨S32x114688, .f32⟩ : BufTy).Contents (Elt Ideal)) : (⟨S100000x32, .f32⟩ : BufTy).Contents (Elt Ideal) :=
  transpose S100000x32 [1, 0] (extractStridedSlice S32x100000 ![0, 0] A slices_S32x114688_S32x100000_0_0) transposes_S32x100000_S100000x32_1_0

/-! ## The first region's arrays when it is entered -/

/-- The first stretch of host operations, from any contents: the neighbour mean of the input rows. -/
theorem st0_v22 (W : Valuation τ sig (Elt Ideal)) : after (hostOps0 (F := Ideal)) W (Proc.devRef .tc main_v22)
    = Nbr.nm15 (W (Proc.devRef .tc main_arg0)) (Nbr.src (W (Proc.devRef .tc main_arg1))) (Nbr.dst (W (Proc.devRef .tc main_arg1))) := by
  dsimp only [hostOps0]
  after_results_simp
  rfl

/-- The launch contents at an argument's buffer are the launch memory there. -/
theorem W0_arg0 : W0 (F := Ideal) m ρ c (Proc.devRef .tc main_arg0) = a_x := rfl
theorem W0_arg1 : W0 (F := Ideal) m ρ c (Proc.devRef .tc main_arg1) = a_e := rfl

theorem W1_v22 : W1 (F := Ideal) m ρ c (Proc.devRef .tc main_v22) = Nbr.nm15 a_x (Nbr.src a_e) (Nbr.dst a_e) := by
  have h := st0_v22 (W0 (F := Ideal) m ρ c)
  rw [W0_arg0, W0_arg1] at h
  exact h

/-! Stretch by stretch, from any contents `W`: what each later stretch writes where the neighbour mean passes. -/

theorem s01_keep22 (W : Valuation τ sig (Elt Ideal)) :
    after (hostOps0_1 (F := Ideal)) W (Proc.devRef .tc main_v22) = W (Proc.devRef .tc main_v22) := by
  dsimp only [hostOps0_1]
  after_results_simp

theorem s02_v25 (W : Valuation τ sig (Elt Ideal)) : after (hostOps0_2 (F := Ideal)) W (Proc.devRef .tc main_v25)
    = transpose S15x100000 [1, 0] (W (Proc.devRef .tc main_v22)) transposes_S100000x15_S15x100000_1_0 := by
  dsimp only [hostOps0_2]
  after_results_simp

theorem s02_c5 (W : Valuation τ sig (Elt Ideal)) :
    after (hostOps0_2 (F := Ideal)) W (Proc.devRef .tc main_c_5) = constantI S_ 32 0#32 := by
  dsimp only [hostOps0_2]
  after_results_simp

theorem s03_v26 (W : Valuation τ sig (Elt Ideal)) : after (hostOps0_3 (F := Ideal)) W (Proc.devRef .tc main_v26)
    = pad S15x114688 ![0, 0] ![0, 14688] ![0, 0] (W (Proc.devRef .tc main_v25)) (sitofp (F := Ideal) .f32 (W (Proc.devRef .tc main_c_5)))
        pads_S15x100000_S15x114688_000_0146880 h_S_ := by
  dsimp only [hostOps0_3]
  after_results_simp
  rfl

theorem s04_keep26 (W : Valuation τ sig (Elt Ideal)) :
    after (hostOps0_4 (F := Ideal)) W (Proc.devRef .tc main_v26) = W (Proc.devRef .tc main_v26) := by
  dsimp only [hostOps0_4]
  after_results_simp

theorem V5_v26 : W5 (F := Ideal) m ρ c (Proc.devRef .tc main_v26) = padT15 (Nbr.nm15 a_x (Nbr.src a_e) (Nbr.dst a_e)) := by
  have e5 : W5 (F := Ideal) m ρ c (Proc.devRef .tc main_v26) = W4 (F := Ideal) m ρ c (Proc.devRef .tc main_v26) :=
    s04_keep26 (W4 (F := Ideal) m ρ c)
  have e4 : W4 (F := Ideal) m ρ c (Proc.devRef .tc main_v26)
      = pad S15x114688 ![0, 0] ![0, 14688] ![0, 0] (W3 (F := Ideal) m ρ c (Proc.devRef .tc main_v25))
          (sitofp (F := Ideal) .f32 (W3 (F := Ideal) m ρ c (Proc.devRef .tc main_c_5))) pads_S15x100000_S15x114688_000_0146880 h_S_ :=
    s03_v26 (W3 (F := Ideal) m ρ c)
  have e3 : W3 (F := Ideal) m ρ c (Proc.devRef .tc main_v25)
      = transpose S15x100000 [1, 0] (W2 (F := Ideal) m ρ c (Proc.devRef .tc main_v22)) transposes_S100000x15_S15x100000_1_0 :=
    s02_v25 (W2 (F := Ideal) m ρ c)
  have e3' : W3 (F := Ideal) m ρ c (Proc.devRef .tc main_c_5) = constantI S_ 32 0#32 := s02_c5 (W2 (F := Ideal) m ρ c)
  have e2 : W2 (F := Ideal) m ρ c (Proc.devRef .tc main_v22) = W1 (F := Ideal) m ρ c (Proc.devRef .tc main_v22) :=
    s01_keep22 (W1 (F := Ideal) m ρ c)
  rw [e5, e4, e3, e3', e2, W1_v22]
  rfl

theorem V5_v24 : W5 (F := Ideal) m ρ c (Proc.devRef .tc main_v24) = padT15 a_x := by
  dsimp only [W5, W4, W3, W2, W1, hostOps0, hostOps0_1, hostOps0_2, hostOps0_3, hostOps0_4]
  after_results_simp
  rfl

theorem V5_arg2 : W5 (F := Ideal) m ρ c (Proc.devRef .tc main_arg2) = a_w1l := by
  dsimp only [W5, W4, W3, W2, W1, hostOps0, hostOps0_1, hostOps0_2, hostOps0_3, hostOps0_4]
  after_results_simp

theorem V5_arg4 : W5 (F := Ideal) m ρ c (Proc.devRef .tc main_arg4) = a_w1r := by
  dsimp only [W5, W4, W3, W2, W1, hostOps0, hostOps0_1, hostOps0_2, hostOps0_3, hostOps0_4]
  after_results_simp

theorem V5_v27 : W5 (F := Ideal) m ρ c (Proc.devRef .tc main_v27) = shapeCast S32x1 a_b1 shapeCasts_S32_S32x1 := by
  dsimp only [W5, W4, W3, W2, W1, hostOps0, hostOps0_1, hostOps0_2, hostOps0_3, hostOps0_4]
  after_results_simp
  rfl

/-! ## The first region's output when it ends -/

/-- The first region leaves the transposed layer of the padded transposes. -/
theorem W6_v28 : (W6 (F := Ideal) m ρ c (Proc.devRef .tc main_v28) : S32x114688.Idx → EReal)
    = Cert.Sage.layerT (a_w1l : S32x15.Idx → EReal) (a_w1r : S32x15.Idx → EReal)
        (shapeCast S32x1 a_b1 shapeCasts_S32_S32x1 : S32x1.Idx → EReal)
        (padT15 (Nbr.nm15 a_x (Nbr.src a_e) (Nbr.dst a_e)) : S15x114688.Idx → EReal) (padT15 a_x : S15x114688.Idx → EReal) := by
  have h := (W6_arr (F := Ideal) m ρ c 5).trans (Cert.Sage.Reg0.final (V5 (F := Ideal) m ρ) Cert.Sage.Pay.pay_layer1 c)
  refine h.trans ?_
  unfold Cert.Sage.Reg0.G
  show Cert.Sage.layerT (W5 (F := Ideal) m ρ c (Proc.devRef .tc main_arg2) : S32x15.Idx → EReal)
      (W5 (F := Ideal) m ρ c (Proc.devRef .tc main_arg4) : S32x15.Idx → EReal)
      (W5 (F := Ideal) m ρ c (Proc.devRef .tc main_v27) : S32x1.Idx → EReal)
      (W5 (F := Ideal) m ρ c (Proc.devRef .tc main_v26) : S15x114688.Idx → EReal)
      (W5 (F := Ideal) m ρ c (Proc.devRef .tc main_v24) : S15x114688.Idx → EReal) = _
  rw [V5_arg2, V5_arg4, V5_v27, V5_v26, V5_v24]

/-! ## The first layer -/

/-- The first region's output, cut to its first 100000 columns and transposed, is the first layer. -/
theorem h1_eq : sliceT32 (W6 (F := Ideal) m ρ c (Proc.devRef .tc main_v28))
    = Cert.Sage.Ref.h1 a_x a_e a_w1l a_b1 a_w1r := by
  funext j
  obtain ⟨n, f, rfl⟩ : ∃ (n : Fin 100000) (f : Fin 32), j = ix2 n f := ⟨j 0, j 1, eq_ix2 j⟩
  have hn : n.val < 114688 := by have := n.isLt; omega
  unfold sliceT32
  rw [Cert.Sage.Layout.sliceT_apply _ _ _ n f ⟨n.val, hn⟩ rfl, W6_v28]
  unfold Cert.Sage.Ref.h1
  rw [← Nbr.nm15_eq]
  exact Cert.Sage.layerT_eq (a_w1l : S32x15.Idx → EReal) (a_w1r : S32x15.Idx → EReal)
    (shapeCast S32x1 a_b1 shapeCasts_S32_S32x1 : S32x1.Idx → EReal) (a_b1 : S32.Idx → EReal)
    (padT15 (Nbr.nm15 a_x (Nbr.src a_e) (Nbr.dst a_e)) : S15x114688.Idx → EReal) (padT15 a_x : S15x114688.Idx → EReal)
    (Nbr.nm15 a_x (Nbr.src a_e) (Nbr.dst a_e) : S100000x15.Idx → EReal) (a_x : S100000x15.Idx → EReal)
    f ⟨n.val, hn⟩ n (Cert.Sage.Layout.col_apply _ _ f)
    (fun k => by unfold padT15; exact Cert.Sage.Layout.padT_apply _ _ _ _ _ k n ⟨n.val, hn⟩ rfl)
    (fun k => by unfold padT15; exact Cert.Sage.Layout.padT_apply _ _ _ _ _ k n ⟨n.val, hn⟩ rfl)

end Cert.Sage.Walk

end
-- ==== Proof.Region1.lean ====
/-
  The second accelerator region: what its three output arrays hold when the region ends.

  The grid has seven points. At point `t` the two node operands' windows are columns `16384 t … 16384 t + 16383` of
  their [32, 114688] arrays; the two layer weights, the layer's bias column, and the three heads' weights and bias
  columns are whole. The body forms the transposed second layer of the two blocks and stores its three transposed
  heads as columns `16384 t …` of the [3, 114688], [8, 114688] and [1, 114688] outputs. A column of a layer or of a
  head reads the same column of the node operands only, so every block written back is a block of ONE function of the
  region's arrays — the transposed head of the transposed layer of the whole arrays — and the seven blocks cover each
  output.
-/
import proofs.«111565_j57483842290347_1_alg».proof.Proof.Gen.KernelIdeal.Frame
import proofs.«111565_j57483842290347_1_alg».proof.Proof.SpecCongr
import proofs.«111565_j57483842290347_1_alg».proof.Proof.Payload
import Idealize.ShloMosaic.Lib.Pipeline.Value

set_option maxRecDepth 16384

noncomputable section

namespace Cert.Sage.Reg1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The windows' block indices at every grid point: the two node operands and the three outputs move along the
    second axis with the point; the weights and the bias columns stay. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = t.val
    ∧ win1_12.index t (0 : Fin 2) = 0 ∧ win1_12.index t (1 : Fin 2) = t.val
    ∧ win1_13.index t (0 : Fin 2) = 0 ∧ win1_13.index t (1 : Fin 2) = t.val :=
  (by decide +kernel : ∀ t : Fin grid1.N, _)

/-- The hidden array as one function of the region's arrays at entry: the transposed layer of the whole arrays. -/
def H (c : Dev nD) : S32x114688.Idx → EReal :=
  Cert.Sage.layerT (V c main_arg5 : S32x32.Idx → EReal) (V c main_arg7 : S32x32.Idx → EReal)
    (V c main_v54 : S32x1.Idx → EReal) (V c main_v53 : S32x114688.Idx → EReal) (V c main_v51 : S32x114688.Idx → EReal)

/-- The three-row output as one function of the region's arrays at entry: the transposed first head of `H`. -/
def G11 (c : Dev nD) : S3x114688.Idx → EReal :=
  Cert.Sage.headT (V c main_arg8 : S3x32.Idx → EReal) (V c main_v55 : S3x1.Idx → EReal) (H V c)

/-- The eight-row output: the transposed second head of `H`. -/
def G12 (c : Dev nD) : S8x114688.Idx → EReal :=
  Cert.Sage.headT (V c main_arg10 : S8x32.Idx → EReal) (V c main_v56 : S8x1.Idx → EReal) (H V c)

/-- The one-row output: the transposed third head of `H`. -/
def G13 (c : Dev nD) : S1x114688.Idx → EReal :=
  Cert.Sage.headT (V c main_arg12 : S1x32.Idx → EReal) (V c main_v57 : S1x1.Idx → EReal) (H V c)

/-- A node operand's block at point `t`, entry (k, n), is the array at (k, 16384 t + n). -/
theorem blk0 (c : Dev nD) (t : Fin cfg1.N) (k : Fin 32) (n : Fin 16384) (n' : Fin 114688)
    (hn : n'.val = t.val * 16384 + n.val) :
    (iblk1 V c 0 t : S32x16384.Idx → EReal) (ix2 k n) = (V c main_v53 : S32x114688.Idx → EReal) (ix2 k n') := by
  obtain ⟨e0, e1, -⟩ := idx_facts t
  unfold iblk1
  rw [View.read_apply]
  show (V c main_v53 : S32x114688.Idx → EReal) _ = _
  refine congrArg _ (funext fun a => Fin.ext ?_)
  match a with
  | ⟨0, _⟩ => show win1_0.index t (0 : Fin 2) * 32 + 1 * k.val = k.val; rw [e0]; omega
  | ⟨1, _⟩ => show win1_0.index t (1 : Fin 2) * 16384 + 1 * n.val = n'.val; rw [e1, hn]; omega

theorem blk1 (c : Dev nD) (t : Fin cfg1.N) (k : Fin 32) (n : Fin 16384) (n' : Fin 114688)
    (hn : n'.val = t.val * 16384 + n.val) :
    (iblk1 V c 1 t : S32x16384.Idx → EReal) (ix2 k n) = (V c main_v51 : S32x114688.Idx → EReal) (ix2 k n') := by
  obtain ⟨-, -, e0, e1, -⟩ := idx_facts t
  unfold iblk1
  rw [View.read_apply]
  show (V c main_v51 : S32x114688.Idx → EReal) _ = _
  refine congrArg _ (funext fun a => Fin.ext ?_)
  match a with
  | ⟨0, _⟩ => show win1_1.index t (0 : Fin 2) * 32 + 1 * k.val = k.val; rw [e0]; omega
  | ⟨1, _⟩ => show win1_1.index t (1 : Fin 2) * 16384 + 1 * n.val = n'.val; rw [e1, hn]; omega

/-- The layer's weights' and bias column's blocks are the whole arrays. -/
theorem blk2 (c : Dev nD) (t : Fin cfg1.N) (r : Fin 32) (k : Fin 32) :
    (iblk1 V c 2 t : S32x32.Idx → EReal) (ix2 r k) = (V c main_arg5 : S32x32.Idx → EReal) (ix2 r k) := by
  obtain ⟨-, -, -, -, e0, e1, -⟩ := idx_facts t
  unfold iblk1
  rw [View.read_apply]
  show (V c main_arg5 : S32x32.Idx → EReal) _ = _
  refine congrArg _ (funext fun a => Fin.ext ?_)
  match a with
  | ⟨0, _⟩ => show win1_2.index t (0 : Fin 2) * 32 + 1 * r.val = r.val; rw [e0]; omega
  | ⟨1, _⟩ => show win1_2.index t (1 : Fin 2) * 32 + 1 * k.val = k.val; rw [e1]; omega

theorem blk3 (c : Dev nD) (t : Fin cfg1.N) (r : Fin 32) (k : Fin 32) :
    (iblk1 V c 3 t : S32x32.Idx → EReal) (ix2 r k) = (V c main_arg7 : S32x32.Idx → EReal) (ix2 r k) := by
  obtain ⟨-, -, -, -, -, -, e0, e1, -⟩ := idx_facts t
  unfold iblk1
  rw [View.read_apply]
  show (V c main_arg7 : S32x32.Idx → EReal) _ = _
  refine congrArg _ (funext fun a => Fin.ext ?_)
  match a with
  | ⟨0, _⟩ => show win1_3.index t (0 : Fin 2) * 32 + 1 * r.val = r.val; rw [e0]; omega
  | ⟨1, _⟩ => show win1_3.index t (1 : Fin 2) * 32 + 1 * k.val = k.val; rw [e1]; omega

theorem blk4 (c : Dev nD) (t : Fin cfg1.N) (r : Fin 32) :
    (iblk1 V c 4 t : S32x1.Idx → EReal) (ix2 r 0) = (V c main_v54 : S32x1.Idx → EReal) (ix2 r 0) := by
  obtain ⟨-, -, -, -, -, -, -, -, e0, e1, -⟩ := idx_facts t
  unfold iblk1
  rw [View.read_apply]
  show (V c main_v54 : S32x1.Idx → EReal) _ = _
  refine congrArg _ (funext fun a => Fin.ext ?_)
  match a with
  | ⟨0, _⟩ => show win1_4.index t (0 : Fin 2) * 32 + 1 * r.val = r.val; rw [e0]; omega
  | ⟨1, _⟩ => show win1_4.index t (1 : Fin 2) * 1 + 1 * 0 = 0; rw [e1]

/-- The heads' weights' and bias columns' blocks are the whole arrays. -/
theorem blk5 (c : Dev nD) (t : Fin cfg1.N) (r : Fin 3) (k : Fin 32) :
    (iblk1 V c 5 t : S3x32.Idx → EReal) (ix2 r k) = (V c main_arg8 : S3x32.Idx → EReal) (ix2 r k) := by
  obtain ⟨-, -, -, -, -, -, -, -, -, -, e0, e1, -⟩ := idx_facts t
  unfold iblk1
  rw [View.read_apply]
  show (V c main_arg8 : S3x32.Idx → EReal) _ = _
  refine congrArg _ (funext fun a => Fin.ext ?_)
  match a with
  | ⟨0, _⟩ => show win1_5.index t (0 : Fin 2) * 3 + 1 * r.val = r.val; rw [e0]; omega
  | ⟨1, _⟩ => show win1_5.index t (1 : Fin 2) * 32 + 1 * k.val = k.val; rw [e1]; omega

theorem blk6 (c : Dev nD) (t : Fin cfg1.N) (r : Fin 3) :
    (iblk1 V c 6 t : S3x1.Idx → EReal) (ix2 r 0) = (V c main_v55 : S3x1.Idx → EReal) (ix2 r 0) := by
  obtain ⟨-, -, -, -, -, -, -, -, -, -, -, -, e0, e1, -⟩ := idx_facts t
  unfold iblk1
  rw [View.read_apply]
  show (V c main_v55 : S3x1.Idx → EReal) _ = _
  refine congrArg _ (funext fun a => Fin.ext ?_)
  match a with
  | ⟨0, _⟩ => show win1_6.index t (0 : Fin 2) * 3 + 1 * r.val = r.val; rw [e0]; omega
  | ⟨1, _⟩ => show win1_6.index t (1 : Fin 2) * 1 + 1 * 0 = 0; rw [e1]

theorem blk7 (c : Dev nD) (t : Fin cfg1.N) (r : Fin 8) (k : Fin 32) :
    (iblk1 V c 7 t : S8x32.Idx → EReal) (ix2 r k) = (V c main_arg10 : S8x32.Idx → EReal) (ix2 r k) := by
  obtain ⟨-, -, -, -, -, -, -, -, -, -, -, -, -, -, e0, e1, -⟩ := idx_facts t
  unfold iblk1
  rw [View.read_apply]
  show (V c main_arg10 : S8x32.Idx → EReal) _ = _
  refine congrArg _ (funext fun a => Fin.ext ?_)
  match a with
  | ⟨0, _⟩ => show win1_7.index t (0 : Fin 2) * 8 + 1 * r.val = r.val; rw [e0]; omega
  | ⟨1, _⟩ => show win1_7.index t (1 : Fin 2) * 32 + 1 * k.val = k.val; rw [e1]; omega

theorem blk8 (c : Dev nD) (t : Fin cfg1.N) (r : Fin 8) :
    (iblk1 V c 8 t : S8x1.Idx → EReal) (ix2 r 0) = (V c main_v56 : S8x1.Idx → EReal) (ix2 r 0) := by
  obtain ⟨-, -, -, -, -, -, -, -, -, -, -, -, -, -, -, -, e0, e1, -⟩ := idx_facts t
  unfold iblk1
  rw [View.read_apply]
  show (V c main_v56 : S8x1.Idx → EReal) _ = _
  refine congrArg _ (funext fun a => Fin.ext ?_)
  match a with
  | ⟨0, _⟩ => show win1_8.index t (0 : Fin 2) * 8 + 1 * r.val = r.val; rw [e0]; omega
  | ⟨1, _⟩ => show win1_8.index t (1 : Fin 2) * 1 + 1 * 0 = 0; rw [e1]

theorem blk9 (c : Dev nD) (t : Fin cfg1.N) (r : Fin 1) (k : Fin 32) :
    (iblk1 V c 9 t : S1x32.Idx → EReal) (ix2 r k) = (V c main_arg12 : S1x32.Idx → EReal) (ix2 r k) := by
  obtain ⟨-, -, -, -, -, -, -, -, -, -, -, -, -, -, -, -, -, -, e0, e1, -⟩ := idx_facts t
  unfold iblk1
  rw [View.read_apply]
  show (V c main_arg12 : S1x32.Idx → EReal) _ = _
  refine congrArg _ (funext fun a => Fin.ext ?_)
  match a with
  | ⟨0, _⟩ => show win1_9.index t (0 : Fin 2) * 1 + 1 * r.val = r.val; rw [e0]; omega
  | ⟨1, _⟩ => show win1_9.index t (1 : Fin 2) * 32 + 1 * k.val = k.val; rw [e1]; omega

theorem blk10 (c : Dev nD) (t : Fin cfg1.N) (r : Fin 1) :
    (iblk1 V c 10 t : S1x1.Idx → EReal) (ix2 r 0) = (V c main_v57 : S1x1.Idx → EReal) (ix2 r 0) := by
  obtain ⟨-, -, -, -, -, -, -, -, -, -, -, -, -, -, -, -, -, -, -, -, e0, e1, -⟩ := idx_facts t
  unfold iblk1
  rw [View.read_apply]
  show (V c main_v57 : S1x1.Idx → EReal) _ = _
  refine congrArg _ (funext fun a => Fin.ext ?_)
  match a with
  | ⟨0, _⟩ => show win1_10.index t (0 : Fin 2) * 1 + 1 * r.val = r.val; rw [e0]; omega
  | ⟨1, _⟩ => show win1_10.index t (1 : Fin 2) * 1 + 1 * 0 = 0; rw [e1]

/-! ## The three-row output -/

/-- What point `t` writes back to the three-row output is block `t` of `G11`. -/
theorem flushed_eq11 (c : Dev nD) (t : Fin cfg1.N) :
    (dat1 (F := Ideal) V c).flushed 11 t = ((cfg1.win 11).blk t).view.read (Elt Ideal) (G11 V c) := by
  show (cfg1.win 11).cut (grid1.coords t) ((dat1 (F := Ideal) V c).after 11 t) = _
  rw [after1_11]
  unfold out1_11
  rw [View.canon_unit_zero hz]
  simp only [View.ld_unit_zero (S := S32x16384) hz, View.ld_unit_zero (S := S32x32) hz, View.ld_unit_zero (S := S32x1) hz,
    View.ld_unit_zero (S := S3x32) hz, View.ld_unit_zero (S := S3x1) hz]
  rw [Cert.Sage.Pay.pay_head]
  obtain ⟨-, -, -, -, -, -, -, -, -, -, -, -, -, -, -, -, -, -, -, -, -, -, e0, e1, -⟩ := idx_facts t
  funext j
  obtain ⟨r, n, rfl⟩ : ∃ (r : Fin 3) (n : Fin 16384), j = ix2 r n := ⟨j 0, j 1, eq_ix2 j⟩
  have hlt : t.val * 16384 + n.val < 114688 := by
    have ht : t.val < 7 := lt_of_lt_of_eq t.isLt N_1
    have := n.isLt; omega
  show Cert.Sage.headT (iblk1 V c 5 t : S3x32.Idx → EReal) (iblk1 V c 6 t : S3x1.Idx → EReal)
      (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal)) (ix2 r n)
    = G11 V c (((cfg1.win 11).blk t).view.emb (ix2 r n))
  have he : ((cfg1.win 11).blk t).view.emb (ix2 r n) = (ix2 r ⟨t.val * 16384 + n.val, hlt⟩ : S3x114688.Idx) := by
    funext a; apply Fin.ext
    match a with
    | ⟨0, _⟩ => show win1_11.index t (0 : Fin 2) * 3 + 1 * r.val = r.val; rw [e0]; omega
    | ⟨1, _⟩ => show win1_11.index t (1 : Fin 2) * 16384 + 1 * n.val = t.val * 16384 + n.val; rw [e1]; omega
  rw [he]
  unfold G11 H
  exact Cert.Sage.headT_congr (V c main_arg8 : S3x32.Idx → EReal) (iblk1 V c 5 t : S3x32.Idx → EReal)
    (V c main_v55 : S3x1.Idx → EReal) (iblk1 V c 6 t : S3x1.Idx → EReal)
    (Cert.Sage.layerT (V c main_arg5 : S32x32.Idx → EReal) (V c main_arg7 : S32x32.Idx → EReal)
      (V c main_v54 : S32x1.Idx → EReal) (V c main_v53 : S32x114688.Idx → EReal) (V c main_v51 : S32x114688.Idx → EReal))
    (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal))
    r ⟨t.val * 16384 + n.val, hlt⟩ n
    (fun k => blk5 V c t r k) (blk6 V c t r)
    (fun k => Cert.Sage.layerT_congr (V c main_arg5 : S32x32.Idx → EReal) (V c main_arg7 : S32x32.Idx → EReal)
      (iblk1 V c 2 t : S32x32.Idx → EReal) (iblk1 V c 3 t : S32x32.Idx → EReal)
      (V c main_v54 : S32x1.Idx → EReal) (iblk1 V c 4 t : S32x1.Idx → EReal)
      (V c main_v53 : S32x114688.Idx → EReal) (V c main_v51 : S32x114688.Idx → EReal)
      (iblk1 V c 0 t : S32x16384.Idx → EReal) (iblk1 V c 1 t : S32x16384.Idx → EReal)
      k ⟨t.val * 16384 + n.val, hlt⟩ n
      (fun k' => blk2 V c t k k') (fun k' => blk3 V c t k k') (blk4 V c t k)
      (fun k' => blk0 V c t k' n ⟨t.val * 16384 + n.val, hlt⟩ rfl) (fun k' => blk1 V c t k' n ⟨t.val * 16384 + n.val, hlt⟩ rfl))

/-- An index of the three-row output is in point `t`'s block iff each coordinate is in the block's range on its axis. -/
theorem mem_blk11 (t : Fin cfg1.N) (i : S3x114688.Idx) :
    i ∈ ((cfg1.win 11).blk t).view.set ↔ ∀ a : Fin 2, win1_11.index t a * S3x16384.size a ≤ (i a).val ∧ (i a).val < win1_11.index t a * S3x16384.size a + S3x16384.size a := by
  show i ∈ ((View.whole main_v58_0).slice (win1_11.rect t)).set ↔ _
  rw [View.set_slice_whole, Rect.mem_set_unit]
  exact Iff.rfl

/-- The three-row output when the region ends: the transposed head of the transposed layer of the region's arrays at entry. -/
theorem final11 (c : Dev nD) : (dat1 (F := Ideal) V c).arrAt 11 cfg1.N = G11 V c :=
  (dat1 (F := Ideal) V c).arrAt_eq_of_cover 11 (G11 V c) (fun t _ => flushed_eq11 V c t) fun i => by
    have hi0 : (i 0).val < 3 := (i 0).isLt
    have hi1 : (i 1).val < 114688 := (i 1).isLt
    have hN : cfg1.N = 7 := N_1
    refine ⟨⟨(i 1).val / 16384, by rw [hN]; omega⟩, flush1_11 _, ?_⟩
    rw [mem_blk11]
    obtain ⟨-, -, -, -, -, -, -, -, -, -, -, -, -, -, -, -, -, -, -, -, -, -, e0, e1, -⟩ := idx_facts ⟨(i 1).val / 16384, by rw [hN]; omega⟩
    intro a
    match a with
    | ⟨0, _⟩ => show win1_11.index _ (0 : Fin 2) * 3 ≤ (i 0).val ∧ (i 0).val < win1_11.index _ (0 : Fin 2) * 3 + 3; rw [e0]; omega
    | ⟨1, _⟩ => show win1_11.index _ (1 : Fin 2) * 16384 ≤ (i 1).val ∧ (i 1).val < win1_11.index _ (1 : Fin 2) * 16384 + 16384; rw [e1]; show (i 1).val / 16384 * 16384 ≤ (i 1).val ∧ (i 1).val < (i 1).val / 16384 * 16384 + 16384; omega

/-! ## The eight-row output -/

/-- What point `t` writes back to the eight-row output is block `t` of `G12`. -/
theorem flushed_eq12 (c : Dev nD) (t : Fin cfg1.N) :
    (dat1 (F := Ideal) V c).flushed 12 t = ((cfg1.win 12).blk t).view.read (Elt Ideal) (G12 V c) := by
  show (cfg1.win 12).cut (grid1.coords t) ((dat1 (F := Ideal) V c).after 12 t) = _
  rw [after1_12]
  unfold out1_12
  rw [View.canon_unit_zero hz]
  simp only [View.ld_unit_zero (S := S32x16384) hz, View.ld_unit_zero (S := S32x32) hz, View.ld_unit_zero (S := S32x1) hz,
    View.ld_unit_zero (S := S8x32) hz, View.ld_unit_zero (S := S8x1) hz]
  rw [Cert.Sage.Pay.pay_mat]
  obtain ⟨-, -, -, -, -, -, -, -, -, -, -, -, -, -, -, -, -, -, -, -, -, -, -, -, e0, e1, -⟩ := idx_facts t
  funext j
  obtain ⟨r, n, rfl⟩ : ∃ (r : Fin 8) (n : Fin 16384), j = ix2 r n := ⟨j 0, j 1, eq_ix2 j⟩
  have hlt : t.val * 16384 + n.val < 114688 := by
    have ht : t.val < 7 := lt_of_lt_of_eq t.isLt N_1
    have := n.isLt; omega
  show Cert.Sage.headT (iblk1 V c 7 t : S8x32.Idx → EReal) (iblk1 V c 8 t : S8x1.Idx → EReal)
      (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal)) (ix2 r n)
    = G12 V c (((cfg1.win 12).blk t).view.emb (ix2 r n))
  have he : ((cfg1.win 12).blk t).view.emb (ix2 r n) = (ix2 r ⟨t.val * 16384 + n.val, hlt⟩ : S8x114688.Idx) := by
    funext a; apply Fin.ext
    match a with
    | ⟨0, _⟩ => show win1_12.index t (0 : Fin 2) * 8 + 1 * r.val = r.val; rw [e0]; omega
    | ⟨1, _⟩ => show win1_12.index t (1 : Fin 2) * 16384 + 1 * n.val = t.val * 16384 + n.val; rw [e1]; omega
  rw [he]
  unfold G12 H
  exact Cert.Sage.headT_congr (V c main_arg10 : S8x32.Idx → EReal) (iblk1 V c 7 t : S8x32.Idx → EReal)
    (V c main_v56 : S8x1.Idx → EReal) (iblk1 V c 8 t : S8x1.Idx → EReal)
    (Cert.Sage.layerT (V c main_arg5 : S32x32.Idx → EReal) (V c main_arg7 : S32x32.Idx → EReal)
      (V c main_v54 : S32x1.Idx → EReal) (V c main_v53 : S32x114688.Idx → EReal) (V c main_v51 : S32x114688.Idx → EReal))
    (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal))
    r ⟨t.val * 16384 + n.val, hlt⟩ n
    (fun k => blk7 V c t r k) (blk8 V c t r)
    (fun k => Cert.Sage.layerT_congr (V c main_arg5 : S32x32.Idx → EReal) (V c main_arg7 : S32x32.Idx → EReal)
      (iblk1 V c 2 t : S32x32.Idx → EReal) (iblk1 V c 3 t : S32x32.Idx → EReal)
      (V c main_v54 : S32x1.Idx → EReal) (iblk1 V c 4 t : S32x1.Idx → EReal)
      (V c main_v53 : S32x114688.Idx → EReal) (V c main_v51 : S32x114688.Idx → EReal)
      (iblk1 V c 0 t : S32x16384.Idx → EReal) (iblk1 V c 1 t : S32x16384.Idx → EReal)
      k ⟨t.val * 16384 + n.val, hlt⟩ n
      (fun k' => blk2 V c t k k') (fun k' => blk3 V c t k k') (blk4 V c t k)
      (fun k' => blk0 V c t k' n ⟨t.val * 16384 + n.val, hlt⟩ rfl) (fun k' => blk1 V c t k' n ⟨t.val * 16384 + n.val, hlt⟩ rfl))

/-- An index of the eight-row output is in point `t`'s block iff each coordinate is in the block's range on its axis. -/
theorem mem_blk12 (t : Fin cfg1.N) (i : S8x114688.Idx) :
    i ∈ ((cfg1.win 12).blk t).view.set ↔ ∀ a : Fin 2, win1_12.index t a * S8x16384.size a ≤ (i a).val ∧ (i a).val < win1_12.index t a * S8x16384.size a + S8x16384.size a := by
  show i ∈ ((View.whole main_v58_1).slice (win1_12.rect t)).set ↔ _
  rw [View.set_slice_whole, Rect.mem_set_unit]
  exact Iff.rfl

/-- The eight-row output when the region ends: the transposed head of the transposed layer of the region's arrays at entry. -/
theorem final12 (c : Dev nD) : (dat1 (F := Ideal) V c).arrAt 12 cfg1.N = G12 V c :=
  (dat1 (F := Ideal) V c).arrAt_eq_of_cover 12 (G12 V c) (fun t _ => flushed_eq12 V c t) fun i => by
    have hi0 : (i 0).val < 8 := (i 0).isLt
    have hi1 : (i 1).val < 114688 := (i 1).isLt
    have hN : cfg1.N = 7 := N_1
    refine ⟨⟨(i 1).val / 16384, by rw [hN]; omega⟩, flush1_12 _, ?_⟩
    rw [mem_blk12]
    obtain ⟨-, -, -, -, -, -, -, -, -, -, -, -, -, -, -, -, -, -, -, -, -, -, -, -, e0, e1, -⟩ := idx_facts ⟨(i 1).val / 16384, by rw [hN]; omega⟩
    intro a
    match a with
    | ⟨0, _⟩ => show win1_12.index _ (0 : Fin 2) * 8 ≤ (i 0).val ∧ (i 0).val < win1_12.index _ (0 : Fin 2) * 8 + 8; rw [e0]; omega
    | ⟨1, _⟩ => show win1_12.index _ (1 : Fin 2) * 16384 ≤ (i 1).val ∧ (i 1).val < win1_12.index _ (1 : Fin 2) * 16384 + 16384; rw [e1]; show (i 1).val / 16384 * 16384 ≤ (i 1).val ∧ (i 1).val < (i 1).val / 16384 * 16384 + 16384; omega

/-! ## The one-row output -/

/-- What point `t` writes back to the one-row output is block `t` of `G13`. -/
theorem flushed_eq13 (c : Dev nD) (t : Fin cfg1.N) :
    (dat1 (F := Ideal) V c).flushed 13 t = ((cfg1.win 13).blk t).view.read (Elt Ideal) (G13 V c) := by
  show (cfg1.win 13).cut (grid1.coords t) ((dat1 (F := Ideal) V c).after 13 t) = _
  rw [after1_13]
  unfold out1_13
  rw [View.canon_unit_zero hz]
  simp only [View.ld_unit_zero (S := S32x16384) hz, View.ld_unit_zero (S := S32x32) hz, View.ld_unit_zero (S := S32x1) hz,
    View.ld_unit_zero (S := S1x32) hz, View.ld_unit_zero (S := S1x1) hz]
  rw [Cert.Sage.Pay.pay_len]
  obtain ⟨-, -, -, -, -, -, -, -, -, -, -, -, -, -, -, -, -, -, -, -, -, -, -, -, -, -, e0, e1⟩ := idx_facts t
  funext j
  obtain ⟨r, n, rfl⟩ : ∃ (r : Fin 1) (n : Fin 16384), j = ix2 r n := ⟨j 0, j 1, eq_ix2 j⟩
  have hlt : t.val * 16384 + n.val < 114688 := by
    have ht : t.val < 7 := lt_of_lt_of_eq t.isLt N_1
    have := n.isLt; omega
  show Cert.Sage.headT (iblk1 V c 9 t : S1x32.Idx → EReal) (iblk1 V c 10 t : S1x1.Idx → EReal)
      (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal)) (ix2 r n)
    = G13 V c (((cfg1.win 13).blk t).view.emb (ix2 r n))
  have he : ((cfg1.win 13).blk t).view.emb (ix2 r n) = (ix2 r ⟨t.val * 16384 + n.val, hlt⟩ : S1x114688.Idx) := by
    funext a; apply Fin.ext
    match a with
    | ⟨0, _⟩ => show win1_13.index t (0 : Fin 2) * 1 + 1 * r.val = r.val; rw [e0]; omega
    | ⟨1, _⟩ => show win1_13.index t (1 : Fin 2) * 16384 + 1 * n.val = t.val * 16384 + n.val; rw [e1]; omega
  rw [he]
  unfold G13 H
  exact Cert.Sage.headT_congr (V c main_arg12 : S1x32.Idx → EReal) (iblk1 V c 9 t : S1x32.Idx → EReal)
    (V c main_v57 : S1x1.Idx → EReal) (iblk1 V c 10 t : S1x1.Idx → EReal)
    (Cert.Sage.layerT (V c main_arg5 : S32x32.Idx → EReal) (V c main_arg7 : S32x32.Idx → EReal)
      (V c main_v54 : S32x1.Idx → EReal) (V c main_v53 : S32x114688.Idx → EReal) (V c main_v51 : S32x114688.Idx → EReal))
    (Cert.Sage.layerT (iblk1 V c 2 t : S32x32.Idx → EReal) (iblk1 V c 3 t : S32x32.Idx → EReal) (iblk1 V c 4 t : S32x1.Idx → EReal)
        (iblk1 V c 0 t : S32x16384.Idx → EReal) (iblk1 V c 1 t : S32x16384.Idx → EReal))
    r ⟨t.val * 16384 + n.val, hlt⟩ n
    (fun k => blk9 V c t r k) (blk10 V c t r)
    (fun k => Cert.Sage.layerT_congr (V c main_arg5 : S32x32.Idx → EReal) (V c main_arg7 : S32x32.Idx → EReal)
      (iblk1 V c 2 t : S32x32.Idx → EReal) (iblk1 V c 3 t : S32x32.Idx → EReal)
      (V c main_v54 : S32x1.Idx → EReal) (iblk1 V c 4 t : S32x1.Idx → EReal)
      (V c main_v53 : S32x114688.Idx → EReal) (V c main_v51 : S32x114688.Idx → EReal)
      (iblk1 V c 0 t : S32x16384.Idx → EReal) (iblk1 V c 1 t : S32x16384.Idx → EReal)
      k ⟨t.val * 16384 + n.val, hlt⟩ n
      (fun k' => blk2 V c t k k') (fun k' => blk3 V c t k k') (blk4 V c t k)
      (fun k' => blk0 V c t k' n ⟨t.val * 16384 + n.val, hlt⟩ rfl) (fun k' => blk1 V c t k' n ⟨t.val * 16384 + n.val, hlt⟩ rfl))

/-- An index of the one-row output is in point `t`'s block iff each coordinate is in the block's range on its axis. -/
theorem mem_blk13 (t : Fin cfg1.N) (i : S1x114688.Idx) :
    i ∈ ((cfg1.win 13).blk t).view.set ↔ ∀ a : Fin 2, win1_13.index t a * S1x16384.size a ≤ (i a).val ∧ (i a).val < win1_13.index t a * S1x16384.size a + S1x16384.size a := by
  show i ∈ ((View.whole main_v58_2).slice (win1_13.rect t)).set ↔ _
  rw [View.set_slice_whole, Rect.mem_set_unit]
  exact Iff.rfl

/-- The one-row output when the region ends: the transposed head of the transposed layer of the region's arrays at entry. -/
theorem final13 (c : Dev nD) : (dat1 (F := Ideal) V c).arrAt 13 cfg1.N = G13 V c :=
  (dat1 (F := Ideal) V c).arrAt_eq_of_cover 13 (G13 V c) (fun t _ => flushed_eq13 V c t) fun i => by
    have hi0 : (i 0).val < 1 := (i 0).isLt
    have hi1 : (i 1).val < 114688 := (i 1).isLt
    have hN : cfg1.N = 7 := N_1
    refine ⟨⟨(i 1).val / 16384, by rw [hN]; omega⟩, flush1_13 _, ?_⟩
    rw [mem_blk13]
    obtain ⟨-, -, -, -, -, -, -, -, -, -, -, -, -, -, -, -, -, -, -, -, -, -, -, -, -, -, e0, e1⟩ := idx_facts ⟨(i 1).val / 16384, by rw [hN]; omega⟩
    intro a
    match a with
    | ⟨0, _⟩ => show win1_13.index _ (0 : Fin 2) * 1 ≤ (i 0).val ∧ (i 0).val < win1_13.index _ (0 : Fin 2) * 1 + 1; rw [e0]; omega
    | ⟨1, _⟩ => show win1_13.index _ (1 : Fin 2) * 16384 ≤ (i 1).val ∧ (i 1).val < win1_13.index _ (1 : Fin 2) * 16384 + 16384; rw [e1]; show (i 1).val / 16384 * 16384 ≤ (i 1).val ∧ (i 1).val < (i 1).val / 16384 * 16384 + 16384; omega

end Cert.Sage.Reg1

end
-- ==== Proof.Walk1.lean ====
/-
  The second half of the accelerator program, read: the host operations between the regions, the second region, and
  the host operations after it.

  Between the regions the host cuts the first region's output back to 100000 columns and transposes it (the first
  layer), computes its neighbour mean, transposes both and pads them with zero columns, and recasts the four biases as
  columns. The second region leaves the three transposed heads of the transposed second layer of those arrays. After it
  the host cuts each output to its first 100000 columns and transposes it. Column `n < 100000` of a transposed layer
  or head reads column `n` of the padded transposes only, which is row `n` of the arrays themselves: each result is the
  specification's head of the second layer.
-/
import proofs.«111565_j57483842290347_1_alg».proof.Proof.Walk0
import proofs.«111565_j57483842290347_1_alg».proof.Proof.Region1

set_option maxRecDepth 16384
set_option quotPrecheck false

noncomputable section

namespace Cert.Sage.Walk

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

local notation "a_x" => (m ((c : Thread nD τ).loc main_arg0))
local notation "a_e" => (m ((c : Thread nD τ).loc main_arg1))
local notation "a_w1l" => (m ((c : Thread nD τ).loc main_arg2))
local notation "a_b1" => (m ((c : Thread nD τ).loc main_arg3))
local notation "a_w1r" => (m ((c : Thread nD τ).loc main_arg4))
local notation "a_w2l" => (m ((c : Thread nD τ).loc main_arg5))
local notation "a_b2" => (m ((c : Thread nD τ).loc main_arg6))
local notation "a_w2r" => (m ((c : Thread nD τ).loc main_arg7))
local notation "a_wh" => (m ((c : Thread nD τ).loc main_arg8))
local notation "a_bh" => (m ((c : Thread nD τ).loc main_arg9))
local notation "a_wm" => (m ((c : Thread nD τ).loc main_arg10))
local notation "a_bm" => (m ((c : Thread nD τ).loc main_arg11))
local notation "a_wl" => (m ((c : Thread nD τ).loc main_arg12))
local notation "a_bl" => (m ((c : Thread nD τ).loc main_arg13))

/-- The transpose of a 32-column array, padded with zero columns up to 114688. -/
def padT32 (y : (⟨S100000x32, .f32⟩ : BufTy).Contents (Elt Ideal)) : (⟨S32x114688, .f32⟩ : BufTy).Contents (Elt Ideal) :=
  pad S32x114688 ![0, 0] ![0, 14688] ![0, 0] (transpose S32x100000 [1, 0] y transposes_S100000x32_S32x100000_1_0)
    (sitofp (F := Ideal) .f32 (constantI S_ 32 0#32)) pads_S32x100000_S32x114688_000_0146880 h_S_

def sliceT3 (A : (⟨S3x114688, .f32⟩ : BufTy).Contents (Elt Ideal)) : (⟨S100000x3, .f32⟩ : BufTy).Contents (Elt Ideal) :=
  transpose S100000x3 [1, 0] (extractStridedSlice S3x100000 ![0, 0] A slices_S3x114688_S3x100000_0_0) transposes_S3x100000_S100000x3_1_0
def sliceT8 (A : (⟨S8x114688, .f32⟩ : BufTy).Contents (Elt Ideal)) : (⟨S100000x8, .f32⟩ : BufTy).Contents (Elt Ideal) :=
  transpose S100000x8 [1, 0] (extractStridedSlice S8x100000 ![0, 0] A slices_S8x114688_S8x100000_0_0) transposes_S8x100000_S100000x8_1_0
def sliceT1 (A : (⟨S1x114688, .f32⟩ : BufTy).Contents (Elt Ideal)) : (⟨S100000x1, .f32⟩ : BufTy).Contents (Elt Ideal) :=
  transpose S100000x1 [1, 0] (extractStridedSlice S1x100000 ![0, 0] A slices_S1x114688_S1x100000_0_0) transposes_S1x100000_S100000x1_1_0

/-! ## What the first region leaves alone -/

theorem W6_arg5 : W6 (F := Ideal) m ρ c (Proc.devRef .tc main_arg5) = a_w2l := by
  rw [W6_of_ne m ρ c main_arg5 (by decide)]
  dsimp only [W5, W4, W3, W2, W1, hostOps0, hostOps0_1, hostOps0_2, hostOps0_3, hostOps0_4]
  after_results_simp
theorem W6_arg6 : W6 (F := Ideal) m ρ c (Proc.devRef .tc main_arg6) = a_b2 := by
  rw [W6_of_ne m ρ c main_arg6 (by decide)]
  dsimp only [W5, W4, W3, W2, W1, hostOps0, hostOps0_1, hostOps0_2, hostOps0_3, hostOps0_4]
  after_results_simp
theorem W6_arg7 : W6 (F := Ideal) m ρ c (Proc.devRef .tc main_arg7) = a_w2r := by
  rw [W6_of_ne m ρ c main_arg7 (by decide)]
  dsimp only [W5, W4, W3, W2, W1, hostOps0, hostOps0_1, hostOps0_2, hostOps0_3, hostOps0_4]
  after_results_simp
theorem W6_arg8 : W6 (F := Ideal) m ρ c (Proc.devRef .tc main_arg8) = a_wh := by
  rw [W6_of_ne m ρ c main_arg8 (by decide)]
  dsimp only [W5, W4, W3, W2, W1, hostOps0, hostOps0_1, hostOps0_2, hostOps0_3, hostOps0_4]
  after_results_simp
theorem W6_arg9 : W6 (F := Ideal) m ρ c (Proc.devRef .tc main_arg9) = a_bh := by
  rw [W6_of_ne m ρ c main_arg9 (by decide)]
  dsimp only [W5, W4, W3, W2, W1, hostOps0, hostOps0_1, hostOps0_2, hostOps0_3, hostOps0_4]
  after_results_simp
theorem W6_arg10 : W6 (F := Ideal) m ρ c (Proc.devRef .tc main_arg10) = a_wm := by
  rw [W6_of_ne m ρ c main_arg10 (by decide)]
  dsimp only [W5, W4, W3, W2, W1, hostOps0, hostOps0_1, hostOps0_2, hostOps0_3, hostOps0_4]
  after_results_simp
theorem W6_arg11 : W6 (F := Ideal) m ρ c (Proc.devRef .tc main_arg11) = a_bm := by
  rw [W6_of_ne m ρ c main_arg11 (by decide)]
  dsimp only [W5, W4, W3, W2, W1, hostOps0, hostOps0_1, hostOps0_2, hostOps0_3, hostOps0_4]
  after_results_simp
theorem W6_arg12 : W6 (F := Ideal) m ρ c (Proc.devRef .tc main_arg12) = a_wl := by
  rw [W6_of_ne m ρ c main_arg12 (by decide)]
  dsimp only [W5, W4, W3, W2, W1, hostOps0, hostOps0_1, hostOps0_2, hostOps0_3, hostOps0_4]
  after_results_simp
theorem W6_arg13 : W6 (F := Ideal) m ρ c (Proc.devRef .tc main_arg13) = a_bl := by
  rw [W6_of_ne m ρ c main_arg13 (by decide)]
  dsimp only [W5, W4, W3, W2, W1, hostOps0, hostOps0_1, hostOps0_2, hostOps0_3, hostOps0_4]
  after_results_simp
theorem W6_v1 : W6 (F := Ideal) m ρ c (Proc.devRef .tc main_v1) = Nbr.src a_e := by
  rw [W6_of_ne m ρ c main_v1 (by decide)]
  dsimp only [W5, W4, W3, W2, W1, hostOps0, hostOps0_1, hostOps0_2, hostOps0_3, hostOps0_4]
  after_results_simp
  rfl
theorem W6_v3 : W6 (F := Ideal) m ρ c (Proc.devRef .tc main_v3) = Nbr.dst a_e := by
  rw [W6_of_ne m ρ c main_v3 (by decide)]
  dsimp only [W5, W4, W3, W2, W1, hostOps0, hostOps0_1, hostOps0_2, hostOps0_3, hostOps0_4]
  after_results_simp
  rfl

/-! ## The second region's arrays when it is entered -/

local notation "H1_" => (Cert.Sage.Ref.h1 a_x a_e a_w1l a_b1 a_w1r)

/-! Stretch by stretch, from any contents `W`. -/

/-- The stretch after the first region: the neighbour mean of the first region's output cut to 100000 columns and
    transposed. -/
theorem st1_v49 (W : Valuation τ sig (Elt Ideal)) : after (hostOps1 (F := Ideal)) W (Proc.devRef .tc main_v49)
    = Nbr.nm32 (sliceT32 (W (Proc.devRef .tc main_v28))) (W (Proc.devRef .tc main_v1)) (W (Proc.devRef .tc main_v3)) := by
  dsimp only [hostOps1]
  after_results_simp
  rfl

theorem st1_v50 (W : Valuation τ sig (Elt Ideal)) : after (hostOps1 (F := Ideal)) W (Proc.devRef .tc main_v50)
    = transpose S32x100000 [1, 0] (sliceT32 (W (Proc.devRef .tc main_v28))) transposes_S100000x32_S32x100000_1_0 := by
  dsimp only [hostOps1]
  after_results_simp
  rfl

theorem st1_c12 (W : Valuation τ sig (Elt Ideal)) : after (hostOps1 (F := Ideal)) W (Proc.devRef .tc main_c_12) = constantI S_ 32 0#32 := by
  dsimp only [hostOps1]
  after_results_simp

theorem s11_v51 (W : Valuation τ sig (Elt Ideal)) : after (hostOps1_1 (F := Ideal)) W (Proc.devRef .tc main_v51)
    = pad S32x114688 ![0, 0] ![0, 14688] ![0, 0] (W (Proc.devRef .tc main_v50)) (sitofp (F := Ideal) .f32 (W (Proc.devRef .tc main_c_12))) pads_S32x100000_S32x114688_000_0146880 h_S_ := by
  dsimp only [hostOps1_1]
  after_results_simp
  rfl

theorem s11_keep49 (W : Valuation τ sig (Elt Ideal)) : after (hostOps1_1 (F := Ideal)) W (Proc.devRef .tc main_v49) = W (Proc.devRef .tc main_v49) := by
  dsimp only [hostOps1_1]
  after_results_simp

theorem s12_v52 (W : Valuation τ sig (Elt Ideal)) : after (hostOps1_2 (F := Ideal)) W (Proc.devRef .tc main_v52)
    = transpose S32x100000 [1, 0] (W (Proc.devRef .tc main_v49)) transposes_S100000x32_S32x100000_1_0 := by
  dsimp only [hostOps1_2]
  after_results_simp

theorem s12_c13 (W : Valuation τ sig (Elt Ideal)) : after (hostOps1_2 (F := Ideal)) W (Proc.devRef .tc main_c_13) = constantI S_ 32 0#32 := by
  dsimp only [hostOps1_2]
  after_results_simp

theorem s12_keep51 (W : Valuation τ sig (Elt Ideal)) : after (hostOps1_2 (F := Ideal)) W (Proc.devRef .tc main_v51) = W (Proc.devRef .tc main_v51) := by
  dsimp only [hostOps1_2]
  after_results_simp

theorem s13_v53 (W : Valuation τ sig (Elt Ideal)) : after (hostOps1_3 (F := Ideal)) W (Proc.devRef .tc main_v53)
    = pad S32x114688 ![0, 0] ![0, 14688] ![0, 0] (W (Proc.devRef .tc main_v52)) (sitofp (F := Ideal) .f32 (W (Proc.devRef .tc main_c_13))) pads_S32x100000_S32x114688_000_0146880 h_S_ := by
  dsimp only [hostOps1_3]
  after_results_simp
  rfl

theorem s13_keep51 (W : Valuation τ sig (Elt Ideal)) : after (hostOps1_3 (F := Ideal)) W (Proc.devRef .tc main_v51) = W (Proc.devRef .tc main_v51) := by
  dsimp only [hostOps1_3]
  after_results_simp

theorem s14_keep51 (W : Valuation τ sig (Elt Ideal)) : after (hostOps1_4 (F := Ideal)) W (Proc.devRef .tc main_v51) = W (Proc.devRef .tc main_v51) := by
  dsimp only [hostOps1_4]
  after_results_simp

theorem s14_keep53 (W : Valuation τ sig (Elt Ideal)) : after (hostOps1_4 (F := Ideal)) W (Proc.devRef .tc main_v53) = W (Proc.devRef .tc main_v53) := by
  dsimp only [hostOps1_4]
  after_results_simp

theorem V11_v51 : W11 (F := Ideal) m ρ c (Proc.devRef .tc main_v51) = padT32 H1_ := by
  have e11 : W11 (F := Ideal) m ρ c (Proc.devRef .tc main_v51) = W10 (F := Ideal) m ρ c (Proc.devRef .tc main_v51) := s14_keep51 (W10 (F := Ideal) m ρ c)
  have e10 : W10 (F := Ideal) m ρ c (Proc.devRef .tc main_v51) = W9 (F := Ideal) m ρ c (Proc.devRef .tc main_v51) := s13_keep51 (W9 (F := Ideal) m ρ c)
  have e9 : W9 (F := Ideal) m ρ c (Proc.devRef .tc main_v51) = W8 (F := Ideal) m ρ c (Proc.devRef .tc main_v51) := s12_keep51 (W8 (F := Ideal) m ρ c)
  have e8 : W8 (F := Ideal) m ρ c (Proc.devRef .tc main_v51)
      = pad S32x114688 ![0, 0] ![0, 14688] ![0, 0] (W7 (F := Ideal) m ρ c (Proc.devRef .tc main_v50)) (sitofp (F := Ideal) .f32 (W7 (F := Ideal) m ρ c (Proc.devRef .tc main_c_12))) pads_S32x100000_S32x114688_000_0146880 h_S_ := s11_v51 (W7 (F := Ideal) m ρ c)
  have e7 : W7 (F := Ideal) m ρ c (Proc.devRef .tc main_v50)
      = transpose S32x100000 [1, 0] (sliceT32 (W6 (F := Ideal) m ρ c (Proc.devRef .tc main_v28))) transposes_S100000x32_S32x100000_1_0 := st1_v50 (W6 (F := Ideal) m ρ c)
  have e7' : W7 (F := Ideal) m ρ c (Proc.devRef .tc main_c_12) = constantI S_ 32 0#32 := st1_c12 (W6 (F := Ideal) m ρ c)
  rw [e11, e10, e9, e8, e7, e7', h1_eq]
  rfl

theorem V11_v53 : W11 (F := Ideal) m ρ c (Proc.devRef .tc main_v53) = padT32 (Cert.Sage.Ref.nm32 H1_ a_e) := by
  have e11 : W11 (F := Ideal) m ρ c (Proc.devRef .tc main_v53) = W10 (F := Ideal) m ρ c (Proc.devRef .tc main_v53) := s14_keep53 (W10 (F := Ideal) m ρ c)
  have e10 : W10 (F := Ideal) m ρ c (Proc.devRef .tc main_v53)
      = pad S32x114688 ![0, 0] ![0, 14688] ![0, 0] (W9 (F := Ideal) m ρ c (Proc.devRef .tc main_v52)) (sitofp (F := Ideal) .f32 (W9 (F := Ideal) m ρ c (Proc.devRef .tc main_c_13))) pads_S32x100000_S32x114688_000_0146880 h_S_ := s13_v53 (W9 (F := Ideal) m ρ c)
  have e9 : W9 (F := Ideal) m ρ c (Proc.devRef .tc main_v52) = transpose S32x100000 [1, 0] (W8 (F := Ideal) m ρ c (Proc.devRef .tc main_v49)) transposes_S100000x32_S32x100000_1_0 := s12_v52 (W8 (F := Ideal) m ρ c)
  have e9' : W9 (F := Ideal) m ρ c (Proc.devRef .tc main_c_13) = constantI S_ 32 0#32 := s12_c13 (W8 (F := Ideal) m ρ c)
  have e8 : W8 (F := Ideal) m ρ c (Proc.devRef .tc main_v49) = W7 (F := Ideal) m ρ c (Proc.devRef .tc main_v49) := s11_keep49 (W7 (F := Ideal) m ρ c)
  have h49 : W7 (F := Ideal) m ρ c (Proc.devRef .tc main_v49)
      = Nbr.nm32 (sliceT32 (W6 (F := Ideal) m ρ c (Proc.devRef .tc main_v28))) (W6 (F := Ideal) m ρ c (Proc.devRef .tc main_v1)) (W6 (F := Ideal) m ρ c (Proc.devRef .tc main_v3)) := st1_v49 (W6 (F := Ideal) m ρ c)
  rw [W6_v1, W6_v3, h1_eq, Nbr.nm32_eq] at h49
  rw [e11, e10, e9, e9', e8, h49]
  rfl

theorem V11_arg5 : W11 (F := Ideal) m ρ c (Proc.devRef .tc main_arg5) = a_w2l := by
  dsimp only [W11, W10, W9, W8, W7, hostOps1, hostOps1_1, hostOps1_2, hostOps1_3, hostOps1_4]
  after_results_simp
  exact W6_arg5 m ρ c
theorem V11_arg7 : W11 (F := Ideal) m ρ c (Proc.devRef .tc main_arg7) = a_w2r := by
  dsimp only [W11, W10, W9, W8, W7, hostOps1, hostOps1_1, hostOps1_2, hostOps1_3, hostOps1_4]
  after_results_simp
  exact W6_arg7 m ρ c
theorem V11_arg8 : W11 (F := Ideal) m ρ c (Proc.devRef .tc main_arg8) = a_wh := by
  dsimp only [W11, W10, W9, W8, W7, hostOps1, hostOps1_1, hostOps1_2, hostOps1_3, hostOps1_4]
  after_results_simp
  exact W6_arg8 m ρ c
theorem V11_arg10 : W11 (F := Ideal) m ρ c (Proc.devRef .tc main_arg10) = a_wm := by
  dsimp only [W11, W10, W9, W8, W7, hostOps1, hostOps1_1, hostOps1_2, hostOps1_3, hostOps1_4]
  after_results_simp
  exact W6_arg10 m ρ c
theorem V11_arg12 : W11 (F := Ideal) m ρ c (Proc.devRef .tc main_arg12) = a_wl := by
  dsimp only [W11, W10, W9, W8, W7, hostOps1, hostOps1_1, hostOps1_2, hostOps1_3, hostOps1_4]
  after_results_simp
  exact W6_arg12 m ρ c

theorem V11_v54 : W11 (F := Ideal) m ρ c (Proc.devRef .tc main_v54) = shapeCast S32x1 a_b2 shapeCasts_S32_S32x1 := by
  rw [← W6_arg6 m ρ c]
  dsimp only [W11, W10, W9, W8, W7, hostOps1, hostOps1_1, hostOps1_2, hostOps1_3, hostOps1_4]
  after_results_simp
  rfl
theorem V11_v55 : W11 (F := Ideal) m ρ c (Proc.devRef .tc main_v55) = shapeCast S3x1 a_bh shapeCasts_S3_S3x1 := by
  rw [← W6_arg9 m ρ c]
  dsimp only [W11, W10, W9, W8, W7, hostOps1, hostOps1_1, hostOps1_2, hostOps1_3, hostOps1_4]
  after_results_simp
  rfl
theorem V11_v56 : W11 (F := Ideal) m ρ c (Proc.devRef .tc main_v56) = shapeCast S8x1 a_bm shapeCasts_S8_S8x1 := by
  rw [← W6_arg11 m ρ c]
  dsimp only [W11, W10, W9, W8, W7, hostOps1, hostOps1_1, hostOps1_2, hostOps1_3, hostOps1_4]
  after_results_simp
  rfl
theorem V11_v57 : W11 (F := Ideal) m ρ c (Proc.devRef .tc main_v57) = shapeCast S1x1 a_bl shapeCasts_S1_S1x1 := by
  rw [← W6_arg13 m ρ c]
  dsimp only [W11, W10, W9, W8, W7, hostOps1, hostOps1_1, hostOps1_2, hostOps1_3, hostOps1_4]
  after_results_simp
  rfl

/-! ## The second region's outputs when it ends -/

/-- The transposed second layer of the padded transposes. -/
def H2T : S32x114688.Idx → EReal :=
  Cert.Sage.layerT (a_w2l : S32x32.Idx → EReal) (a_w2r : S32x32.Idx → EReal)
    (shapeCast S32x1 a_b2 shapeCasts_S32_S32x1 : S32x1.Idx → EReal)
    (padT32 (Cert.Sage.Ref.nm32 H1_ a_e) : S32x114688.Idx → EReal) (padT32 H1_ : S32x114688.Idx → EReal)

theorem hidden_eq : Cert.Sage.Reg1.H (V11 (F := Ideal) m ρ) c = H2T m c := by
  unfold Cert.Sage.Reg1.H H2T
  show Cert.Sage.layerT (W11 (F := Ideal) m ρ c (Proc.devRef .tc main_arg5) : S32x32.Idx → EReal)
      (W11 (F := Ideal) m ρ c (Proc.devRef .tc main_arg7) : S32x32.Idx → EReal)
      (W11 (F := Ideal) m ρ c (Proc.devRef .tc main_v54) : S32x1.Idx → EReal)
      (W11 (F := Ideal) m ρ c (Proc.devRef .tc main_v53) : S32x114688.Idx → EReal)
      (W11 (F := Ideal) m ρ c (Proc.devRef .tc main_v51) : S32x114688.Idx → EReal) = _
  rw [V11_arg5, V11_arg7, V11_v54, V11_v53, V11_v51]

theorem W12_v58_0 : (W12 (F := Ideal) m ρ c (Proc.devRef .tc main_v58_0) : S3x114688.Idx → EReal)
    = Cert.Sage.headT (a_wh : S3x32.Idx → EReal) (shapeCast S3x1 a_bh shapeCasts_S3_S3x1 : S3x1.Idx → EReal) (H2T m c) := by
  refine ((W12_arr (F := Ideal) m ρ c 11).trans (Cert.Sage.Reg1.final11 (V11 (F := Ideal) m ρ) c)).trans ?_
  unfold Cert.Sage.Reg1.G11
  rw [hidden_eq]
  show Cert.Sage.headT (W11 (F := Ideal) m ρ c (Proc.devRef .tc main_arg8) : S3x32.Idx → EReal)
      (W11 (F := Ideal) m ρ c (Proc.devRef .tc main_v55) : S3x1.Idx → EReal) (H2T m c) = _
  rw [V11_arg8, V11_v55]

theorem W12_v58_1 : (W12 (F := Ideal) m ρ c (Proc.devRef .tc main_v58_1) : S8x114688.Idx → EReal)
    = Cert.Sage.headT (a_wm : S8x32.Idx → EReal) (shapeCast S8x1 a_bm shapeCasts_S8_S8x1 : S8x1.Idx → EReal) (H2T m c) := by
  refine ((W12_arr (F := Ideal) m ρ c 12).trans (Cert.Sage.Reg1.final12 (V11 (F := Ideal) m ρ) c)).trans ?_
  unfold Cert.Sage.Reg1.G12
  rw [hidden_eq]
  show Cert.Sage.headT (W11 (F := Ideal) m ρ c (Proc.devRef .tc main_arg10) : S8x32.Idx → EReal)
      (W11 (F := Ideal) m ρ c (Proc.devRef .tc main_v56) : S8x1.Idx → EReal) (H2T m c) = _
  rw [V11_arg10, V11_v56]

theorem W12_v58_2 : (W12 (F := Ideal) m ρ c (Proc.devRef .tc main_v58_2) : S1x114688.Idx → EReal)
    = Cert.Sage.headT (a_wl : S1x32.Idx → EReal) (shapeCast S1x1 a_bl shapeCasts_S1_S1x1 : S1x1.Idx → EReal) (H2T m c) := by
  refine ((W12_arr (F := Ideal) m ρ c 13).trans (Cert.Sage.Reg1.final13 (V11 (F := Ideal) m ρ) c)).trans ?_
  unfold Cert.Sage.Reg1.G13
  rw [hidden_eq]
  show Cert.Sage.headT (W11 (F := Ideal) m ρ c (Proc.devRef .tc main_arg12) : S1x32.Idx → EReal)
      (W11 (F := Ideal) m ρ c (Proc.devRef .tc main_v57) : S1x1.Idx → EReal) (H2T m c) = _
  rw [V11_arg12, V11_v57]

/-! ## After the second region -/

theorem W13_v60 : W13 (F := Ideal) m ρ c (Proc.devRef .tc main_v60) = sliceT3 (W12 (F := Ideal) m ρ c (Proc.devRef .tc main_v58_0)) := by
  dsimp only [W13, hostOps2]
  after_results_simp
  rfl
theorem W13_v62 : W13 (F := Ideal) m ρ c (Proc.devRef .tc main_v62) = sliceT8 (W12 (F := Ideal) m ρ c (Proc.devRef .tc main_v58_1)) := by
  dsimp only [W13, hostOps2]
  after_results_simp
  rfl
theorem W13_v64 : W13 (F := Ideal) m ρ c (Proc.devRef .tc main_v64) = sliceT1 (W12 (F := Ideal) m ρ c (Proc.devRef .tc main_v58_2)) := by
  dsimp only [W13, hostOps2]
  after_results_simp
  rfl

/-! ## The three results -/

local notation "H2_" => (Cert.Sage.Ref.h2 a_x a_e a_w1l a_b1 a_w1r a_w2l a_b2 a_w2r)

/-- Column `n < 100000` of the transposed second layer of the padded transposes is row `n` of the second layer. -/
theorem H2T_apply (k : Fin 32) (n : Fin 100000) (n' : Fin 114688) (hn : n'.val = n.val) :
    H2T m c (ix2 k n') = H2_ (ix2 n k) := by
  unfold H2T Cert.Sage.Ref.h2
  exact Cert.Sage.layerT_eq (a_w2l : S32x32.Idx → EReal) (a_w2r : S32x32.Idx → EReal)
    (shapeCast S32x1 a_b2 shapeCasts_S32_S32x1 : S32x1.Idx → EReal) (a_b2 : S32.Idx → EReal)
    (padT32 (Cert.Sage.Ref.nm32 H1_ a_e) : S32x114688.Idx → EReal) (padT32 H1_ : S32x114688.Idx → EReal)
    (Cert.Sage.Ref.nm32 H1_ a_e : S100000x32.Idx → EReal) (H1_ : S100000x32.Idx → EReal)
    k n' n (Cert.Sage.Layout.col_apply _ _ k)
    (fun j => by unfold padT32; exact Cert.Sage.Layout.padT_apply _ _ _ _ _ j n n' hn)
    (fun j => by unfold padT32; exact Cert.Sage.Layout.padT_apply _ _ _ _ _ j n n' hn)

theorem out_head : (W13 (F := Ideal) m ρ c (Proc.devRef .tc main_v60) : S100000x3.Idx → EReal)
    = Cert.Sage.head (a_wh : S3x32.Idx → EReal) (a_bh : S3.Idx → EReal) H2_ := by
  funext j
  obtain ⟨n, k, rfl⟩ : ∃ (n : Fin 100000) (k : Fin 3), j = ix2 n k := ⟨j 0, j 1, eq_ix2 j⟩
  have hn : n.val < 114688 := by have := n.isLt; omega
  rw [W13_v60]
  unfold sliceT3
  rw [Cert.Sage.Layout.sliceT_apply _ _ _ n k ⟨n.val, hn⟩ rfl, W12_v58_0]
  exact Cert.Sage.headT_eq (a_wh : S3x32.Idx → EReal) (shapeCast S3x1 a_bh shapeCasts_S3_S3x1 : S3x1.Idx → EReal)
    (a_bh : S3.Idx → EReal) (H2T m c) H2_ k ⟨n.val, hn⟩ n (Cert.Sage.Layout.col_apply _ _ k)
    (fun i => H2T_apply m c i n ⟨n.val, hn⟩ rfl)

theorem out_mat : (W13 (F := Ideal) m ρ c (Proc.devRef .tc main_v62) : S100000x8.Idx → EReal)
    = Cert.Sage.head (a_wm : S8x32.Idx → EReal) (a_bm : S8.Idx → EReal) H2_ := by
  funext j
  obtain ⟨n, k, rfl⟩ : ∃ (n : Fin 100000) (k : Fin 8), j = ix2 n k := ⟨j 0, j 1, eq_ix2 j⟩
  have hn : n.val < 114688 := by have := n.isLt; omega
  rw [W13_v62]
  unfold sliceT8
  rw [Cert.Sage.Layout.sliceT_apply _ _ _ n k ⟨n.val, hn⟩ rfl, W12_v58_1]
  exact Cert.Sage.headT_eq (a_wm : S8x32.Idx → EReal) (shapeCast S8x1 a_bm shapeCasts_S8_S8x1 : S8x1.Idx → EReal)
    (a_bm : S8.Idx → EReal) (H2T m c) H2_ k ⟨n.val, hn⟩ n (Cert.Sage.Layout.col_apply _ _ k)
    (fun i => H2T_apply m c i n ⟨n.val, hn⟩ rfl)

theorem out_len : (W13 (F := Ideal) m ρ c (Proc.devRef .tc main_v64) : S100000x1.Idx → EReal)
    = Cert.Sage.head (a_wl : S1x32.Idx → EReal) (a_bl : S1.Idx → EReal) H2_ := by
  funext j
  obtain ⟨n, k, rfl⟩ : ∃ (n : Fin 100000) (k : Fin 1), j = ix2 n k := ⟨j 0, j 1, eq_ix2 j⟩
  have hn : n.val < 114688 := by have := n.isLt; omega
  rw [W13_v64]
  unfold sliceT1
  rw [Cert.Sage.Layout.sliceT_apply _ _ _ n k ⟨n.val, hn⟩ rfl, W12_v58_2]
  exact Cert.Sage.headT_eq (a_wl : S1x32.Idx → EReal) (shapeCast S1x1 a_bl shapeCasts_S1_S1x1 : S1x1.Idx → EReal)
    (a_bl : S1.Idx → EReal) (H2T m c) H2_ k ⟨n.val, hn⟩ n (Cert.Sage.Layout.col_apply _ _ k)
    (fun i => H2T_apply m c i n ⟨n.val, hn⟩ rfl)

end Cert.Sage.Walk

end
-- ==== Proof.lean ====
/-
  The kernel and its reference compute the same three arrays over the extended reals.

  Both programs are a two-layer mean-aggregation graph network followed by three linear heads. With the neighbour mean
  of a feature array along the edges carried as one function of its operands, a layer is
      (n, f) ↦ max (∑ k, Wl (f, k) · mean (n, k) + ∑ k, Wr (f, k) · x (n, k) + b f) 0
  and a head is (n, c) ↦ ∑ k, W (c, k) · h (n, k) + b c. The reference computes these with the nodes along the first
  axis. The kernel keeps the neighbour means on the host and computes the dense part in two accelerator regions with
  the nodes along the second axis, padded with zero columns to seven blocks of 16384 and cut back afterwards; its
  narrow-format conversions are the identity on exact values. Entry by entry the two sides differ only in the order of
  the three summands and of the factors of a product, so they are equal on all of the extended reals and the
  finiteness of the inputs is never used.

  The three frames: the two kernel programs' are the generated frame certificates; the reference's is its run with
  the results dropped. The idealization rewrote no operation, so there is nothing to preserve.
-/
import proofs.«111565_j57483842290347_1_alg».proof.Defs
import proofs.«111565_j57483842290347_1_alg».proof.Proof.Gen.Kernel
import proofs.«111565_j57483842290347_1_alg».proof.Proof.Gen.Kernel.Frame
import proofs.«111565_j57483842290347_1_alg».proof.Proof.Gen.KernelIdeal
import proofs.«111565_j57483842290347_1_alg».proof.Proof.Gen.KernelIdeal.Frame
import proofs.«111565_j57483842290347_1_alg».proof.Proof.Gen.ReferenceIdeal
import proofs.«111565_j57483842290347_1_alg».proof.Proof.Gen.Pre_finite_inputs
import proofs.«111565_j57483842290347_1_alg».proof.Proof.Gen.ReferenceIdeal.Run
import proofs.«111565_j57483842290347_1_alg».proof.Proof.Gen.ReferenceIdeal.Read
import proofs.«111565_j57483842290347_1_alg».proof.Proof.KernelRun
import proofs.«111565_j57483842290347_1_alg».proof.Proof.Walk1
import proofs.«111565_j57483842290347_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the three heads of the second layer of arguments that agree. -/
theorem algebraic : Cert.algebraic_KernelIdeal_ReferenceIdeal := by
  intro m ρ m' ρ' _ hagree
  refine ⟨_, _, _,
    (θ_run Cert.KernelIdeal.defs _ _).mono (fun r h c =>
      ⟨(h c).1.trans (Cert.Sage.Walk.out_head m ρ c), (h c).2.1.trans (Cert.Sage.Walk.out_mat m ρ c),
        (h c).2.2.1.trans (Cert.Sage.Walk.out_len m ρ c), (h c).2.2.2⟩)
      (Cert.KernelIdeal.Results.run (F := Ideal) m ρ), ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13⟩ := hagree c
  refine ⟨(h c).1.trans ?_, (h c).2.1.trans ?_, (h c).2.2.1.trans ?_, (h c).2.2.2⟩
  · rw [Cert.ReferenceIdeal.Read.val_main_v64_eq, Cert.Sage.Ref.out_head, e0, e1, e2, e3, e4, e5, e6, e7, e8, e9]
  · rw [Cert.ReferenceIdeal.Read.val_main_v69_eq, Cert.Sage.Ref.out_mat, e0, e1, e2, e3, e4, e5, e6, e7, e10, e11]
  · rw [Cert.ReferenceIdeal.Read.val_main_v74_eq, Cert.Sage.Ref.out_len, e0, e1, e2, e3, e4, e5, e6, e7, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
